-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S64x128 .f32) (main_arg14 : FVec F S128 .f32) (main_arg15 : FVec F S128x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x128 .f32) (main_arg14 : FVec F S128 .f32) (main_arg15 : FVec F S128x1 .f32) (main_arg16 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x128 .f32) (main_arg14 : FVec F S128 .f32) (main_arg15 : FVec F S128x1 .f32) (main_arg16 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x128 .f32) (main_arg14 : FVec F S128 .f32) (main_arg15 : FVec F S128x1 .f32) (main_arg16 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x64 : Shape := ⟨2, ![5000, 64]⟩
abbrev S800000x64 : Shape := ⟨2, ![800000, 64]⟩
abbrev S1x64 : Shape := ⟨2, ![1, 64]⟩
abbrev S512x64 : Shape := ⟨2, ![512, 64]⟩
abbrev S1x128 : Shape := ⟨2, ![1, 128]⟩
abbrev S1x1 : Shape := ⟨2, ![1, 1]⟩
abbrev S512x1 : Shape := ⟨2, ![512, 1]⟩
abbrev S512x128 : Shape := ⟨2, ![512, 128]⟩

abbrev nBuf : Space → Nat
  | .hbm => 160
  | .vmem => 66
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x128, .f32⟩
  | 14 => ⟨S128, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S50000, .f32⟩
  | 32 => ⟨S50000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S800000x1, .f32⟩
  | 53 => ⟨S50000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S800000x64, .f32⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S50000x64, .f32⟩
  | 70 => ⟨S50000x64, .f32⟩
  | 71 => ⟨S1x64, .f32⟩
  | 72 => ⟨S50000x64, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S800000x64, .f32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S50000x64, .f32⟩
  | 110 => ⟨S50000x64, .f32⟩
  | 111 => ⟨S1x64, .f32⟩
  | 112 => ⟨S50000x64, .f32⟩
  | 113 => ⟨S50000x64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .f32⟩
  | 123 => ⟨S800000x64, .f32⟩
  | 124 => ⟨S800000x64, .f32⟩
  | 125 => ⟨S_, .f32⟩
  | 126 => ⟨S50000x64, .f32⟩
  | 127 => ⟨S800000x1, .i32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S1x64, .f32⟩
  | 4 => ⟨S50000x64, .f32⟩
  | 5 => ⟨S50000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S800000x64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S50000x64, .f32⟩
  | 22 => ⟨S50000x64, .f32⟩
  | 23 => ⟨S1x64, .f32⟩
  | 24 => ⟨S50000x64, .f32⟩
  | 25 => ⟨S_, .f32⟩
  | 26 => ⟨S512x64, .f32⟩
  | 27 => ⟨S50000x1, .i32⟩
  | 28 => ⟨S512x64, .f32⟩
  | 29 => ⟨S1x128, .f32⟩
  | 30 => ⟨S1x1, .f32⟩
  | 31 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S512x64, .f32⟩
  | .local _ .vmem, ⟨61, _⟩ => ⟨S64x128, .f32⟩
  | .local _ .vmem, ⟨62, _⟩ => ⟨S1x128, .f32⟩
  | .local _ .vmem, ⟨63, _⟩ => ⟨S128x1, .f32⟩
  | .local _ .vmem, ⟨64, _⟩ => ⟨S1x1, .f32⟩
  | .local _ .vmem, ⟨65, _⟩ => ⟨S512x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_11 : Ref sig .tc := ⟨.hbm, 94, rfl⟩
abbrev main_v64 : Ref sig .tc := ⟨.hbm, 95, rfl⟩
abbrev main_v65 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_14 : Ref sig .tc := ⟨.hbm, 114, rfl⟩
abbrev main_v81 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_17 : Ref sig .tc := ⟨.hbm, 134, rfl⟩
abbrev main_v98 : Ref sig .tc := ⟨.hbm, 135, rfl⟩
abbrev main_v99 : Ref sig .tc := ⟨.hbm, 136, rfl⟩
abbrev main_c_18 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_19 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_20 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg1_1 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc10_stg0_0 : Ref sig .tc := ⟨.vmem, 60, rfl⟩
abbrev cc10_stg1_0 : Ref sig .tc := ⟨.vmem, 61, rfl⟩
abbrev cc10_stg2_0 : Ref sig .tc := ⟨.vmem, 62, rfl⟩
abbrev cc10_stg3_0 : Ref sig .tc := ⟨.vmem, 63, rfl⟩
abbrev cc10_stg4_0 : Ref sig .tc := ⟨.vmem, 64, rfl⟩
abbrev cc10_stg5_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem1_1 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem1_0 : DmaSem sig := 61
abbrev cc10_sem2_0 : DmaSem sig := 62
abbrev cc10_sem3_0 : DmaSem sig := 63
abbrev cc10_sem4_0 : DmaSem sig := 64
abbrev cc10_sem5_0 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S512x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S64x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S512x1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S50000_S50000x1_0 : S50000.BroadcastsInDim S50000x1 (![0] : Fin 1 → Fin S50000x1.rank)
  shapeCasts_S128_S1x128 : S128.ShapeCasts S1x128
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S50000x64.size a
  hwx8_2 : ∀ i : grid8.Coords, EltTy.bits .f32 = 32 ∨ (Rect.block (s := S50000x64) S5000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S50000x64.size a
  hwx9_1 : ∀ i : grid9.Coords, EltTy.bits .f32 = 32 ∨ (Rect.block (s := S50000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S50000x64.size a
  hwx9_3 : ∀ i : grid9.Coords, EltTy.bits .f32 = 32 ∨ (Rect.block (s := S50000x64) S5000x64.size (cc9_transform_3 i) (hinb9_3 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S512x64.size a ≤ S512x64.size a
  hwx10_0 : ∀ i : grid10.Coords, EltTy.bits .f32 = 32 ∨ (Rect.block (s := S512x64) S512x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x128.size a ≤ S64x128.size a
  hwx10_1 : ∀ i : grid10.Coords, EltTy.bits .f32 = 32 ∨ (Rect.block (s := S64x128) S64x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x1.size a ≤ S128x1.size a
  hwx10_3 : ∀ i : grid10.Coords, EltTy.bits .f32 = 32 ∨ (Rect.block (s := S128x1) S128x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1.size a ≤ S1x1.size a
  hwx10_4 : ∀ i : grid10.Coords, EltTy.bits .f32 = 32 ∨ (Rect.block (s := S1x1) S1x1.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S512x1.size a ≤ S512x1.size a
  hwx10_5 : ∀ i : grid10.Coords, EltTy.bits .f32 = 32 ∨ (Rect.block (s := S512x1) S512x1.size (cc10_transform_5 i) (hinb10_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v79) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v95) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v96) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v97) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v109) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v111) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v112) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v113) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v116) S512x64.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S64x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v117) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg15) S128x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v118) S1x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v119) S512x1.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S512x64 : Shape := ⟨2, ![512, 64]⟩
abbrev S512x128 : Shape := ⟨2, ![512, 128]⟩
abbrev S1x128 : Shape := ⟨2, ![1, 128]⟩
abbrev S512x1 : Shape := ⟨2, ![512, 1]⟩
abbrev S1x1 : Shape := ⟨2, ![1, 1]⟩

abbrev nBuf : Space → Nat
  | .hbm => 281
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x128, .f32⟩
  | 14 => ⟨S128, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x1, .f32⟩
  | 61 => ⟨S800000x64, .f32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S50000, .f32⟩
  | 68 => ⟨S50000x1, .f32⟩
  | 69 => ⟨S50000x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S50000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x1, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S50000, .f32⟩
  | 115 => ⟨S50000x1, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S_, .i32⟩
  | 127 => ⟨S800000, .i32⟩
  | _ => ⟨S50000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000, .f32⟩
  | 16 => ⟨S800000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S800000x1, .f32⟩
  | 27 => ⟨S800000x64, .f32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S50000, .f32⟩
  | 34 => ⟨S50000x1, .f32⟩
  | 35 => ⟨S50000x64, .f32⟩
  | 36 => ⟨S50000x64, .f32⟩
  | 37 => ⟨S50000x64, .f32⟩
  | 38 => ⟨S1x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000, .f32⟩
  | 63 => ⟨S800000, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S800000x1, .f32⟩
  | 74 => ⟨S800000x64, .f32⟩
  | 75 => ⟨S800000x64, .f32⟩
  | 76 => ⟨S_, .f32⟩
  | 77 => ⟨S50000x64, .f32⟩
  | 78 => ⟨S800000x1, .i32⟩
  | 79 => ⟨S50000x64, .f32⟩
  | 80 => ⟨S50000, .f32⟩
  | 81 => ⟨S50000x1, .f32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x1, .f32⟩
  | 121 => ⟨S800000x64, .f32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S50000, .f32⟩
  | _ => ⟨S50000x64, .f32⟩

abbrev hbmTy0_2 (i : Nat) : BufTy := match i % 128 with
  | 0 => ⟨S50000x1, .f32⟩
  | 1 => ⟨S50000x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S_, .f32⟩
  | 11 => ⟨S512x64, .f32⟩
  | 12 => ⟨S50000x1, .i32⟩
  | 13 => ⟨S512x64, .f32⟩
  | 14 => ⟨S512x128, .f32⟩
  | 15 => ⟨S1x128, .f32⟩
  | 16 => ⟨S512x128, .f32⟩
  | 17 => ⟨S512x128, .f32⟩
  | 18 => ⟨S_, .f32⟩
  | 19 => ⟨S512x128, .f32⟩
  | 20 => ⟨S512x128, .f32⟩
  | 21 => ⟨S512x1, .f32⟩
  | 22 => ⟨S1x1, .f32⟩
  | 23 => ⟨S512x1, .f32⟩
  | 24 => ⟨S512x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call0_cst : Ref sig .tc := ⟨.hbm, 75, rfl⟩
abbrev main_call0_v0 : Ref sig .tc := ⟨.hbm, 76, rfl⟩
abbrev main_v48 : Ref sig .tc := ⟨.hbm, 77, rfl⟩
abbrev main_v49 : Ref sig .tc := ⟨.hbm, 78, rfl⟩
abbrev main_c_8 : Ref sig .tc := ⟨.hbm, 79, rfl⟩
abbrev main_v50 : Ref sig .tc := ⟨.hbm, 80, rfl⟩
abbrev main_v51 : Ref sig .tc := ⟨.hbm, 81, rfl⟩
abbrev main_c_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_call1_cst : Ref sig .tc := ⟨.hbm, 122, rfl⟩
abbrev main_call1_v0 : Ref sig .tc := ⟨.hbm, 123, rfl⟩
abbrev main_v86 : Ref sig .tc := ⟨.hbm, 124, rfl⟩
abbrev main_v87 : Ref sig .tc := ⟨.hbm, 125, rfl⟩
abbrev main_c_15 : Ref sig .tc := ⟨.hbm, 126, rfl⟩
abbrev main_v88 : Ref sig .tc := ⟨.hbm, 127, rfl⟩
abbrev main_v89 : Ref sig .tc := ⟨.hbm, 128, rfl⟩
abbrev main_c_16 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_17 : Ref sig .tc := ⟨.hbm, 135, rfl⟩
abbrev main_v95 : Ref sig .tc := ⟨.hbm, 136, rfl⟩
abbrev main_v96 : Ref sig .tc := ⟨.hbm, 137, rfl⟩
abbrev main_c_18 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_19 : Ref sig .tc := ⟨.hbm, 145, rfl⟩
abbrev main_v103 : Ref sig .tc := ⟨.hbm, 146, rfl⟩
abbrev main_v104 : Ref sig .tc := ⟨.hbm, 147, rfl⟩
abbrev main_c_20 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_21 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_call2_cst : Ref sig .tc := ⟨.hbm, 169, rfl⟩
abbrev main_call2_v0 : Ref sig .tc := ⟨.hbm, 170, rfl⟩
abbrev main_v124 : Ref sig .tc := ⟨.hbm, 171, rfl⟩
abbrev main_v125 : Ref sig .tc := ⟨.hbm, 172, rfl⟩
abbrev main_c_22 : Ref sig .tc := ⟨.hbm, 173, rfl⟩
abbrev main_v126 : Ref sig .tc := ⟨.hbm, 174, rfl⟩
abbrev main_v127 : Ref sig .tc := ⟨.hbm, 175, rfl⟩
abbrev main_c_23 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_24 : Ref sig .tc := ⟨.hbm, 182, rfl⟩
abbrev main_v133 : Ref sig .tc := ⟨.hbm, 183, rfl⟩
abbrev main_v134 : Ref sig .tc := ⟨.hbm, 184, rfl⟩
abbrev main_c_25 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_c_26 : Ref sig .tc := ⟨.hbm, 192, rfl⟩
abbrev main_v141 : Ref sig .tc := ⟨.hbm, 193, rfl⟩
abbrev main_v142 : Ref sig .tc := ⟨.hbm, 194, rfl⟩
abbrev main_c_27 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_28 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_call3_cst : Ref sig .tc := ⟨.hbm, 216, rfl⟩
abbrev main_call3_v0 : Ref sig .tc := ⟨.hbm, 217, rfl⟩
abbrev main_v162 : Ref sig .tc := ⟨.hbm, 218, rfl⟩
abbrev main_v163 : Ref sig .tc := ⟨.hbm, 219, rfl⟩
abbrev main_c_29 : Ref sig .tc := ⟨.hbm, 220, rfl⟩
abbrev main_v164 : Ref sig .tc := ⟨.hbm, 221, rfl⟩
abbrev main_v165 : Ref sig .tc := ⟨.hbm, 222, rfl⟩
abbrev main_c_30 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_c_31 : Ref sig .tc := ⟨.hbm, 229, rfl⟩
abbrev main_v171 : Ref sig .tc := ⟨.hbm, 230, rfl⟩
abbrev main_v172 : Ref sig .tc := ⟨.hbm, 231, rfl⟩
abbrev main_c_32 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_c_33 : Ref sig .tc := ⟨.hbm, 239, rfl⟩
abbrev main_v179 : Ref sig .tc := ⟨.hbm, 240, rfl⟩
abbrev main_v180 : Ref sig .tc := ⟨.hbm, 241, rfl⟩
abbrev main_c_34 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_cst_35 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_call4_cst : Ref sig .tc := ⟨.hbm, 263, rfl⟩
abbrev main_call4_v0 : Ref sig .tc := ⟨.hbm, 264, rfl⟩
abbrev main_v200 : Ref sig .tc := ⟨.hbm, 265, rfl⟩
abbrev main_cst_36 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_call5_cst : Ref sig .tc := ⟨.hbm, 274, rfl⟩
abbrev main_call5_v0 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.RunResult.lean ====
/-
  The idealized kernel's run with its result named.

  The program is eighteen segments: stretches of host operations and eleven pipelined calls. The contents of
  every buffer at each segment boundary are a fold from the launch memory; at the return every unscoped buffer
  holds the last boundary's contents. Here that is read at the result buffer as well as at the arguments.
-/
import proofs.«104814_j84112639525116_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's
    contents and the argument arrays end as launched. -/
theorem run_result : θ_run defs (onTc (τ := τ) (main (F := F))) ⟨m, fun _ => 0, ρ⟩ (fun r => ∀ c : Dev nD,
      r.2.mem ((c.tc : Thread nD τ).loc main_v119) = W18 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v119 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c)⟩)

end Cert.KernelIdeal.Gen

end
-- ==== Proof.Payloads.lean ====
/-
  The arithmetic of the projection body, read at one index of the block, over the extended reals.

  The body multiplies a block of 5000 rows by the whole 64 x 64 weight matrix into a zero accumulator; the
  change to the narrower float format before the product is the identity here. Entry (p, q) of the result is
  the sum over k of x(p, k) * w(k, q).
-/
import proofs.«104814_j84112639525116_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Body

open Cert.KernelIdeal Cert.KernelIdeal.Gen

/-- Coordinate 0 of the left factor's index is the row of the result. -/
theorem mm_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- Coordinate 1 of the left factor's index is the contraction index. -/
theorem mm_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- Coordinate 0 of the right factor's index is the contraction index. -/
theorem mm_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
/-- Coordinate 1 of the right factor's index is the column of the result. -/
theorem mm_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

theorem mm_lhs (i : S5000x64.Idx) (k : Fin 64) :
    dot_S5000x64_S64x64_S5000x64_1_0_0_1_n_n.lhsIdx i ((contrEquiv1 dot_S5000x64_S64x64_S5000x64_1_0_0_1_n_n 64 rfl rfl).symm k) = ix2 (i 0) k := by
  have hk := contrEquiv1_symm_val dot_S5000x64_S64x64_S5000x64_1_0_0_1_n_n 64 rfl rfl k
  funext a; apply Fin.ext
  match a with
  | ⟨0, _⟩ => exact mm_lhs0 _ _
  | ⟨1, _⟩ => exact (mm_lhs1 _ _).trans hk

theorem mm_rhs (i : S5000x64.Idx) (k : Fin 64) :
    dot_S5000x64_S64x64_S5000x64_1_0_0_1_n_n.rhsIdx i ((contrEquiv1 dot_S5000x64_S64x64_S5000x64_1_0_0_1_n_n 64 rfl rfl).symm k) = ix2 k (i 1) := by
  have hk := contrEquiv1_symm_val dot_S5000x64_S64x64_S5000x64_1_0_0_1_n_n 64 rfl rfl k
  funext a; apply Fin.ext
  match a with
  | ⟨0, _⟩ => exact (mm_rhs0 _ _).trans hk
  | ⟨1, _⟩ => exact mm_rhs1 _ _

/-- Entry i of the projection body's result: the sum over k of x (row of i, k) * w (k, column of i). -/
theorem mm_apply (x : Vec Ideal S5000x64 .f32) (w : Vec Ideal S64x64 .f32) (i : S5000x64.Idx) :
    k0_pay1 (F := Ideal) x w i = ∑ k : Fin 64, x (ix2 (i 0) k) * w (ix2 k (i 1)) := by
  unfold k0_pay1
  refine (Ideal.matmul_constant_zero_apply dot_S5000x64_S64x64_S5000x64_1_0_0_1_n_n none (truncf .bf16 x bitsLt_bf16_f32)
    (truncf .bf16 w bitsLt_bf16_f32) i).trans ?_
  rw [← Equiv.sum_comp (contrEquiv1 dot_S5000x64_S64x64_S5000x64_1_0_0_1_n_n 64 rfl rfl).symm]
  refine Finset.sum_congr rfl fun k _ => ?_
  rw [mm_lhs, mm_rhs]
  rfl

/-- Entry i of the aggregation body's result: the neighbour sum plus the self-loop term, plus the bias row's entry
    in the column of i (the one bias row is repeated down the block), and then the maximum with zero. -/
theorem fin_apply (x0 x1 : Vec Ideal S5000x64 .f32) (x2 : Vec Ideal S1x64 .f32) (i : S5000x64.Idx) :
    k1_pay1 (F := Ideal) x0 x1 x2 i
      = max ((x0 i + x1 i) + x2 (ix2 0 (i 1))) (Ideal.ofBits .f32 0x00000000#32) := by
  unfold k1_pay1
  simp only [shapeCast_self]
  show max ((x0 i + x1 i) + broadcastTo S5000x64 x2 broadcasts_S1x64_S5000x64 i) (Ideal.ofBits .f32 0x00000000#32) = _
  rw [broadcastTo_apply x2 broadcasts_S1x64_S5000x64 i (ix2 0 (i 1)) (by
    intro a
    match a with
    | ⟨0, _⟩ => rfl
    | ⟨1, _⟩ => rfl)]

/-- The product of a 50000 x 64 array by a 64 x 64 matrix, entry by entry. -/
def proj (h : S50000x64.Idx → EReal) (w : S64x64.Idx → EReal) : S50000x64.Idx → EReal :=
  fun i => ∑ k : Fin 64, h (ix2 (i 0) k) * w (ix2 k (i 1))

/-- One aggregation step, entry by entry: neighbour sum plus self-loop term plus the bias entry of the column, then
    the maximum with zero. -/
def agg (s x : S50000x64.Idx → EReal) (b : S1x64.Idx → EReal) : S50000x64.Idx → EReal :=
  fun i => max ((s i + x i) + b (ix2 0 (i 1))) (Ideal.ofBits .f32 0x00000000#32)

theorem mm_apply0 (x : Vec Ideal S5000x64 .f32) (w : Vec Ideal S64x64 .f32) (i : S5000x64.Idx) :
    k0_pay1 (F := Ideal) x w i = ∑ k : Fin 64, x (ix2 (i 0) k) * w (ix2 k (i 1)) := mm_apply x w i
theorem mm_apply2 (x : Vec Ideal S5000x64 .f32) (w : Vec Ideal S64x64 .f32) (i : S5000x64.Idx) :
    k2_pay1 (F := Ideal) x w i = ∑ k : Fin 64, x (ix2 (i 0) k) * w (ix2 k (i 1)) := by
  have e : k2_pay1 (F := Ideal) x w = k0_pay1 (F := Ideal) x w := by
    unfold k2_pay1 k0_pay1
    simp only [shapeCast_self]
  rw [e]
  exact mm_apply x w i
theorem mm_apply4 (x : Vec Ideal S5000x64 .f32) (w : Vec Ideal S64x64 .f32) (i : S5000x64.Idx) :
    k4_pay1 (F := Ideal) x w i = ∑ k : Fin 64, x (ix2 (i 0) k) * w (ix2 k (i 1)) := by
  have e : k4_pay1 (F := Ideal) x w = k0_pay1 (F := Ideal) x w := by
    unfold k4_pay1 k0_pay1
    simp only [shapeCast_self]
  rw [e]
  exact mm_apply x w i
theorem mm_apply6 (x : Vec Ideal S5000x64 .f32) (w : Vec Ideal S64x64 .f32) (i : S5000x64.Idx) :
    k6_pay1 (F := Ideal) x w i = ∑ k : Fin 64, x (ix2 (i 0) k) * w (ix2 k (i 1)) := by
  have e : k6_pay1 (F := Ideal) x w = k0_pay1 (F := Ideal) x w := by
    unfold k6_pay1 k0_pay1
    simp only [shapeCast_self]
  rw [e]
  exact mm_apply x w i
theorem mm_apply8 (x : Vec Ideal S5000x64 .f32) (w : Vec Ideal S64x64 .f32) (i : S5000x64.Idx) :
    k8_pay1 (F := Ideal) x w i = ∑ k : Fin 64, x (ix2 (i 0) k) * w (ix2 k (i 1)) := by
  have e : k8_pay1 (F := Ideal) x w = k0_pay1 (F := Ideal) x w := by
    unfold k8_pay1 k0_pay1
    simp only [shapeCast_self]
  rw [e]
  exact mm_apply x w i
theorem fin_apply1 (x0 x1 : Vec Ideal S5000x64 .f32) (x2 : Vec Ideal S1x64 .f32) (i : S5000x64.Idx) :
    k1_pay1 (F := Ideal) x0 x1 x2 i = max ((x0 i + x1 i) + x2 (ix2 0 (i 1))) (Ideal.ofBits .f32 0x00000000#32) := fin_apply x0 x1 x2 i
theorem fin_apply3 (x0 x1 : Vec Ideal S5000x64 .f32) (x2 : Vec Ideal S1x64 .f32) (i : S5000x64.Idx) :
    k3_pay1 (F := Ideal) x0 x1 x2 i = max ((x0 i + x1 i) + x2 (ix2 0 (i 1))) (Ideal.ofBits .f32 0x00000000#32) := fin_apply x0 x1 x2 i
theorem fin_apply5 (x0 x1 : Vec Ideal S5000x64 .f32) (x2 : Vec Ideal S1x64 .f32) (i : S5000x64.Idx) :
    k5_pay1 (F := Ideal) x0 x1 x2 i = max ((x0 i + x1 i) + x2 (ix2 0 (i 1))) (Ideal.ofBits .f32 0x00000000#32) := fin_apply x0 x1 x2 i
theorem fin_apply7 (x0 x1 : Vec Ideal S5000x64 .f32) (x2 : Vec Ideal S1x64 .f32) (i : S5000x64.Idx) :
    k7_pay1 (F := Ideal) x0 x1 x2 i = max ((x0 i + x1 i) + x2 (ix2 0 (i 1))) (Ideal.ofBits .f32 0x00000000#32) := fin_apply x0 x1 x2 i
theorem fin_apply9 (x0 x1 : Vec Ideal S5000x64 .f32) (x2 : Vec Ideal S1x64 .f32) (i : S5000x64.Idx) :
    k9_pay1 (F := Ideal) x0 x1 x2 i = max ((x0 i + x1 i) + x2 (ix2 0 (i 1))) (Ideal.ofBits .f32 0x00000000#32) := fin_apply x0 x1 x2 i

end Cert.KernelIdeal.Body

end
-- ==== Proof.HeadBody.lean ====
/-
  The arithmetic of the dense head's body, read at one index, over the extended reals.

  The body multiplies the 512 pooled rows by the first weight matrix, adds the first bias row (repeated down the
  rows), takes the maximum with zero, multiplies by the second weight matrix (one column), and adds the second
  bias entry. The changes of float format in between are the identity here.
-/
import proofs.«104814_j84112639525116_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Body

open Cert.KernelIdeal Cert.KernelIdeal.Gen

theorem d1_lhs0 (i : S512x128.Idx) (q : dot_S512x64_S64x128_S512x128_1_0_0_1_n_n.contr.Idx) : (dot_S512x64_S64x128_S512x128_1_0_0_1_n_n.lhsIdx i q 0).val = (i 0).val := by
  unfold DotDims.lhsIdx
  rw [dif_neg (show ¬(0 : Fin S512x64.rank) ∈ dot_S512x64_S64x128_S512x128_1_0_0_1_n_n.lhsBatch by decide),
    dif_pos (show (0 : Fin S512x64.rank) ∈ dot_S512x64_S64x128_S512x128_1_0_0_1_n_n.lhsNonContracting by decide)]
  rfl
theorem d1_lhs1 (i : S512x128.Idx) (q : dot_S512x64_S64x128_S512x128_1_0_0_1_n_n.contr.Idx) : (dot_S512x64_S64x128_S512x128_1_0_0_1_n_n.lhsIdx i q 1).val = (q ⟨0, by decide⟩).val :=
  dot_S512x64_S64x128_S512x128_1_0_0_1_n_n.lhsIdx_val_of_single rfl i q
theorem d1_rhs0 (i : S512x128.Idx) (q : dot_S512x64_S64x128_S512x128_1_0_0_1_n_n.contr.Idx) : (dot_S512x64_S64x128_S512x128_1_0_0_1_n_n.rhsIdx i q 0).val = (q ⟨0, by decide⟩).val :=
  dot_S512x64_S64x128_S512x128_1_0_0_1_n_n.rhsIdx_val_of_single rfl i q
theorem d1_rhs1 (i : S512x128.Idx) (q : dot_S512x64_S64x128_S512x128_1_0_0_1_n_n.contr.Idx) : (dot_S512x64_S64x128_S512x128_1_0_0_1_n_n.rhsIdx i q 1).val = (i 1).val := by
  unfold DotDims.rhsIdx
  rw [dif_neg (show ¬(1 : Fin S64x128.rank) ∈ dot_S512x64_S64x128_S512x128_1_0_0_1_n_n.rhsBatch by decide),
    dif_pos (show (1 : Fin S64x128.rank) ∈ dot_S512x64_S64x128_S512x128_1_0_0_1_n_n.rhsNonContracting by decide)]
  rfl
/-- The left factor is read at (row of the result, contraction index). -/
theorem d1_lhs (i : S512x128.Idx) (k : Fin 64) :
    dot_S512x64_S64x128_S512x128_1_0_0_1_n_n.lhsIdx i ((contrEquiv1 dot_S512x64_S64x128_S512x128_1_0_0_1_n_n 64 rfl rfl).symm k) = ix2 (i 0) k := by
  have hk := contrEquiv1_symm_val dot_S512x64_S64x128_S512x128_1_0_0_1_n_n 64 rfl rfl k
  funext a; apply Fin.ext
  match a with
  | ⟨0, _⟩ => exact d1_lhs0 _ _
  | ⟨1, _⟩ => exact (d1_lhs1 _ _).trans hk
/-- The right factor is read at (contraction index, column of the result). -/
theorem d1_rhs (i : S512x128.Idx) (k : Fin 64) :
    dot_S512x64_S64x128_S512x128_1_0_0_1_n_n.rhsIdx i ((contrEquiv1 dot_S512x64_S64x128_S512x128_1_0_0_1_n_n 64 rfl rfl).symm k) = ix2 k (i 1) := by
  have hk := contrEquiv1_symm_val dot_S512x64_S64x128_S512x128_1_0_0_1_n_n 64 rfl rfl k
  funext a; apply Fin.ext
  match a with
  | ⟨0, _⟩ => exact (d1_rhs0 _ _).trans hk
  | ⟨1, _⟩ => exact d1_rhs1 _ _

theorem d2_lhs0 (i : S512x1.Idx) (q : dot_S512x128_S128x1_S512x1_1_0_0_1_n_n.contr.Idx) : (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide),
    dif_pos (show (0 : Fin S512x128.rank) ∈ dot_S512x128_S128x1_S512x1_1_0_0_1_n_n.lhsNonContracting by decide)]
  rfl
theorem d2_lhs1 (i : S512x1.Idx) (q : dot_S512x128_S128x1_S512x1_1_0_0_1_n_n.contr.Idx) : (dot_S512x128_S128x1_S512x1_1_0_0_1_n_n.lhsIdx i q 1).val = (q ⟨0, by decide⟩).val :=
  dot_S512x128_S128x1_S512x1_1_0_0_1_n_n.lhsIdx_val_of_single rfl i q
theorem d2_rhs0 (i : S512x1.Idx) (q : dot_S512x128_S128x1_S512x1_1_0_0_1_n_n.contr.Idx) : (dot_S512x128_S128x1_S512x1_1_0_0_1_n_n.rhsIdx i q 0).val = (q ⟨0, by decide⟩).val :=
  dot_S512x128_S128x1_S512x1_1_0_0_1_n_n.rhsIdx_val_of_single rfl i q
theorem d2_rhs1 (i : S512x1.Idx) (q : dot_S512x128_S128x1_S512x1_1_0_0_1_n_n.contr.Idx) : (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide),
    dif_pos (show (1 : Fin S128x1.rank) ∈ dot_S512x128_S128x1_S512x1_1_0_0_1_n_n.rhsNonContracting by decide)]
  rfl
/-- The left factor is read at (row of the result, contraction index). -/
theorem d2_lhs (i : S512x1.Idx) (k : Fin 128) :
    dot_S512x128_S128x1_S512x1_1_0_0_1_n_n.lhsIdx i ((contrEquiv1 dot_S512x128_S128x1_S512x1_1_0_0_1_n_n 128 rfl rfl).symm k) = ix2 (i 0) k := by
  have hk := contrEquiv1_symm_val dot_S512x128_S128x1_S512x1_1_0_0_1_n_n 128 rfl rfl k
  funext a; apply Fin.ext
  match a with
  | ⟨0, _⟩ => exact d2_lhs0 _ _
  | ⟨1, _⟩ => exact (d2_lhs1 _ _).trans hk
/-- The right factor is read at (contraction index, column of the result). -/
theorem d2_rhs (i : S512x1.Idx) (k : Fin 128) :
    dot_S512x128_S128x1_S512x1_1_0_0_1_n_n.rhsIdx i ((contrEquiv1 dot_S512x128_S128x1_S512x1_1_0_0_1_n_n 128 rfl rfl).symm k) = ix2 k (i 1) := by
  have hk := contrEquiv1_symm_val dot_S512x128_S128x1_S512x1_1_0_0_1_n_n 128 rfl rfl k
  funext a; apply Fin.ext
  match a with
  | ⟨0, _⟩ => exact (d2_rhs0 _ _).trans hk
  | ⟨1, _⟩ => exact d2_rhs1 _ _

/-- The hidden layer at (r, u): the maximum of (sum over k of g (r, k) * w1 (k, u)) + b1 (0, u) and zero. -/
def hidden (g : S512x64.Idx → EReal) (w1 : S64x128.Idx → EReal) (b1 : S1x128.Idx → EReal) : S512x128.Idx → EReal :=
  fun j => max ((∑ k : Fin 64, g (ix2 (j 0) k) * w1 (ix2 k (j 1))) + b1 (ix2 0 (j 1))) (Ideal.ofBits .f32 0x00000000#32)

/-- The head's result at i: (sum over u of hidden (row of i, u) * w2 (u, column of i)) + b2 (0, 0). -/
def head (g : S512x64.Idx → EReal) (w1 : S64x128.Idx → EReal) (b1 : S1x128.Idx → EReal) (w2 : S128x1.Idx → EReal)
    (b2 : S1x1.Idx → EReal) : S512x1.Idx → EReal :=
  fun i => (∑ u : Fin 128, hidden g w1 b1 (ix2 (i 0) u) * w2 (ix2 u (i 1))) + b2 (ix2 0 0)

theorem head_apply (g : Vec Ideal S512x64 .f32) (w1 : Vec Ideal S64x128 .f32) (b1 : Vec Ideal S1x128 .f32)
    (w2 : Vec Ideal S128x1 .f32) (b2 : Vec Ideal S1x1 .f32) (i : S512x1.Idx) :
    k10_pay1 (F := Ideal) g w1 b1 w2 b2 i = head g w1 b1 w2 b2 i := by
  unfold k10_pay1 head
  simp only [shapeCast_self]
  refine congrArg₂ (· + ·) ((Ideal.matmul_constant_zero_apply _ none _ _ i).trans ?_)
    (broadcastTo_apply b2 broadcasts_S1x1_S512x1 i (ix2 0 0) (by
      intro a
      match a with
      | ⟨0, _⟩ => rfl
      | ⟨1, _⟩ => rfl))
  rw [← Equiv.sum_comp (contrEquiv1 dot_S512x128_S128x1_S512x1_1_0_0_1_n_n 128 rfl rfl).symm]
  refine Finset.sum_congr rfl fun u _ => ?_
  rw [d2_lhs, d2_rhs]
  refine congrArg₂ (· * ·) ?_ rfl
  unfold hidden
  refine congrArg₂ max (congrArg₂ (· + ·) ((Ideal.matmul_constant_zero_apply _ none _ _ (ix2 (i 0) u : S512x128.Idx)).trans ?_)
    (broadcastTo_apply b1 broadcasts_S1x128_S512x128 (ix2 (i 0) u : S512x128.Idx) (ix2 0 u) (by
      intro a
      match a with
      | ⟨0, _⟩ => rfl
      | ⟨1, _⟩ => rfl))) rfl
  rw [← Equiv.sum_comp (contrEquiv1 dot_S512x64_S64x128_S512x128_1_0_0_1_n_n 64 rfl rfl).symm]
  refine Finset.sum_congr rfl fun k _ => ?_
  rw [d1_lhs, d1_rhs]
  rfl

end Cert.KernelIdeal.Body

end
-- ==== Proof.Bridge.lean ====
/-
  Where the two programs spell the same array differently.

  * A product of a 50000 x 64 array by a 64 x 64 matrix: the kernel's row-blocked product and the reference's one
    whole product are the same sums.
  * A vector made into a one-column array: the kernel reshapes, the reference broadcasts along a new trailing axis;
    entry (e, 0) is entry e either way. The same for a vector made into a one-row array.
  * One aggregation step: the kernel adds the bias row inside the call, the reference broadcasts the bias to the full
    shape first; entry (r, q) gets bias entry q either way.
  * The dense head: the kernel's fused body and the reference's five operations are the same formula entry by entry.
-/
import proofs.«104814_j84112639525116_1_alg».proof.Proof.Payloads
import proofs.«104814_j84112639525116_1_alg».proof.Proof.HeadBody
import proofs.«104814_j84112639525116_1_alg».proof.Proof.Gen.ReferenceIdeal.Read

noncomputable section

open Idealize.ShloMosaic Idealize.ShloMosaic.TcCoe Idealize.ShloMosaic.ValueIdx

namespace Cert.Bridge

open Cert.ReferenceIdeal Cert.ReferenceIdeal.Read

/-- The row-blocked product is the reference's whole product. -/
theorem proj_eq (h : (⟨S50000x64, .f32⟩ : BufTy).Contents (Elt Ideal)) (w : (⟨S64x64, .f32⟩ : BufTy).Contents (Elt Ideal)) :
    Cert.KernelIdeal.Body.proj h w = val_main_v11 (F := Ideal) h w := by
  funext i
  refine Eq.trans ?_ (val_main_v11_apply h w i).symm
  unfold Cert.KernelIdeal.Body.proj
  refine Finset.sum_congr rfl fun k _ => ?_
  have el : (ix2 (i 0) k : S50000x64.Idx) = lidx_main_v11 i k := funext fun a => Fin.ext (by
    match a with
    | ⟨0, _⟩ => rfl
    | ⟨1, _⟩ => rfl)
  have er : (ix2 k (i 1) : S64x64.Idx) = ridx_main_v11 i k := funext fun a => Fin.ext (by
    match a with
    | ⟨0, _⟩ => rfl
    | ⟨1, _⟩ => rfl)
  rw [el, er]

/-- A vector of 800000 entries as one column: reshaping it and broadcasting it along a new trailing axis agree. -/
theorem column_edges {α : Type} (n : S800000.Idx → α) (h : S800000.ShapeCasts S800000x1)
    (hb : S800000.BroadcastsInDim S800000x1 (![0] : Fin 1 → Fin S800000x1.rank)) :
    shapeCast S800000x1 n h = broadcastInDim S800000x1 ![0] hb n := by
  funext i
  have h1 : (i 1).val = 0 := by have := (i 1).isLt; simp at this; omega
  rw [broadcastInDim_apply _ hb n i (ix1 (i 0)) (fun a => match a with
    | ⟨0, _⟩ => by show (i 0).val = if (800000 : Nat) = 1 then 0 else (i 0).val; rw [if_neg (by decide)])]
  refine shapeCast_apply n _ i (ix1 (i 0)) ?_
  rw [Shape.rowMajor_val_one, Shape.rowMajor_val_two]
  show (i 0).val = (i 0).val * 1 + (i 1).val
  omega

/-- A vector of 50000 entries as one column: the same. -/
theorem column_nodes {α : Type} (n : S50000.Idx → α) (h : S50000.ShapeCasts S50000x1)
    (hb : S50000.BroadcastsInDim S50000x1 (![0] : Fin 1 → Fin S50000x1.rank)) :
    shapeCast S50000x1 n h = broadcastInDim S50000x1 ![0] hb n := by
  funext i
  have h1 : (i 1).val = 0 := by have := (i 1).isLt; simp at this; omega
  rw [broadcastInDim_apply _ hb n i (ix1 (i 0)) (fun a => match a with
    | ⟨0, _⟩ => by show (i 0).val = if (50000 : Nat) = 1 then 0 else (i 0).val; rw [if_neg (by decide)])]
  refine shapeCast_apply n _ i (ix1 (i 0)) ?_
  rw [Shape.rowMajor_val_one, Shape.rowMajor_val_two]
  show (i 0).val = (i 0).val * 1 + (i 1).val
  omega

/-- One aggregation step with the bias reshaped to one row is the reference's sum, broadcast bias and maximum. -/
theorem agg_eq (s x : FVec Ideal S50000x64 .f32) (b : FVec Ideal S64 .f32) (h : S64.ShapeCasts S1x64) :
    (Cert.KernelIdeal.Body.agg s x (shapeCast S1x64 b h) : FVec Ideal S50000x64 .f32)
      = maximumf (addf (addf s x) (val_main_v46 (F := Ideal) b)) (val_main_call0_v0 (F := Ideal)) := by
  funext i
  show max ((s i + x i) + shapeCast S1x64 b h (ix2 0 (i 1))) (Ideal.ofBits .f32 0x00000000#32)
    = max ((s i + x i) + val_main_v46 (F := Ideal) b i) (val_main_call0_v0 (F := Ideal) i)
  rw [val_main_v46_apply, val_main_v45_apply, val_main_call0_v0_apply]
  refine congrArg₂ max (congrArg₂ (· + ·) rfl ?_) rfl
  refine shapeCast_apply b _ (ix2 0 (i 1)) _ ?_
  rw [Shape.rowMajor_val_one, Shape.rowMajor_val_two]
  show (i 1).val = 0 * 64 + (i 1).val
  omega

/-- The dense head on the pooled rows, with both biases reshaped to one row, is the reference's last stage. -/
theorem head_eq (x0 x1 x2 x3 x4 x5 x6 x7 x8 x9 x10 x11 x12 x13 x14 x15 x16 : _)
    (g : (⟨S512x64, .f32⟩ : BufTy).Contents (Elt Ideal)) (hg : g = val_main_v203 (F := Ideal) x0 x1 x2 x3 x4 x5 x6 x7 x8 x9 x10 x11 x12)
    (h1 : S128.ShapeCasts S1x128) (h2 : S1.ShapeCasts S1x1) :
    (Cert.KernelIdeal.Body.head g x13 (shapeCast S1x128 x14 h1) x15 (shapeCast S1x1 x16 h2) : FVec Ideal S512x1 .f32)
      = val_main_v212 (F := Ideal) x0 x1 x2 x3 x4 x5 x6 x7 x8 x9 x10 x11 x12 x13 x14 x15 x16 := by
  subst hg
  funext i
  rw [val_main_v212_apply, val_main_v209_apply, val_main_v211_apply, val_main_v210_apply]
  unfold Cert.KernelIdeal.Body.head
  refine congrArg₂ (· + ·) (Finset.sum_congr rfl fun u _ => ?_) ?_
  · have el : (ix2 (i 0) u : S512x128.Idx) = lidx_main_v209 i u := funext fun a => Fin.ext (by
      match a with
      | ⟨0, _⟩ => rfl
      | ⟨1, _⟩ => rfl)
    have er : (ix2 u (i 1) : S128x1.Idx) = ridx_main_v209 i u := funext fun a => Fin.ext (by
      match a with
      | ⟨0, _⟩ => rfl
      | ⟨1, _⟩ => rfl)
    rw [← el, ← er]
    refine congrArg₂ (· * ·) ?_ rfl
    rw [val_main_v208_apply, val_main_v207_apply, val_main_v204_apply, val_main_v206_apply, val_main_v205_apply,
      val_main_call5_v0_apply]
    unfold Cert.KernelIdeal.Body.hidden
    refine congrArg₂ max (congrArg₂ (· + ·) (Finset.sum_congr rfl fun k _ => ?_) ?_) rfl
    · have fl : (ix2 ((ix2 (i 0) u : S512x128.Idx) 0) k : S512x64.Idx) = lidx_main_v204 (ix2 (i 0) u) k := funext fun a => Fin.ext (by
        match a with
        | ⟨0, _⟩ => rfl
        | ⟨1, _⟩ => rfl)
      have fr : (ix2 k ((ix2 (i 0) u : S512x128.Idx) 1) : S64x128.Idx) = ridx_main_v204 (ix2 (i 0) u) k := funext fun a => Fin.ext (by
        match a with
        | ⟨0, _⟩ => rfl
        | ⟨1, _⟩ => rfl)
      rw [fl, fr]
    · refine shapeCast_apply x14 _ (ix2 0 ((ix2 (i 0) u : S512x128.Idx) 1)) _ ?_
      rw [Shape.rowMajor_val_one, Shape.rowMajor_val_two]
      show u.val = 0 * 128 + u.val
      omega
  · refine shapeCast_apply x16 _ (ix2 0 0) _ ?_
    rw [Shape.rowMajor_val_one, Shape.rowMajor_val_two]
    rfl

end Cert.Bridge

end
-- ==== Proof.Call0.lean ====
/-
  Call 0 (a projection): what its result array holds after the call, as one function of the arrays the call
  finds in its two operands.

  The grid has ten points; point t takes rows 5000 t .. 5000 t + 4999 of the left operand and the whole weight
  matrix, and writes rows 5000 t .. 5000 t + 4999 of the result. Row blocks are disjoint and together are all
  50000 rows, so the result array ends holding, at (r, q), the sum over k of left (r, k) * weight (k, q).
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's row block moves with the result's, every other block
    index is zero, and the result's row block index is at most 9. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the two operand arrays. -/
theorem flushed_eq (c : Dev nD) (t : Fin cfg0.N) :
    (dat0 V c).flushed 2 t = ((cfg0.win 2).blk t).view.read (Elt Ideal)
      (Body.proj (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  refine (Body.mm_apply0 (iblk0 V c 0 t) (iblk0 V c 1 t) j).trans ?_
  show _ = Body.proj (V c (Pipeline.arrRef spec0 0)) (V c (Pipeline.arrRef spec0 1)) (((cfg0.win 2).blk t).view.emb j)
  unfold Body.proj
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  refine congrArg₂ (· * ·) ?_ ?_
  · show V c (Pipeline.arrRef spec0 0) (((cfg0.win 0).blk t).view.emb (ix2 (j 0) k)) = _
    exact congrArg _ h0
  · show V c (Pipeline.arrRef spec0 1) (((cfg0.win 1).blk t).view.emb (ix2 k (j 1))) = _
    exact congrArg _ h1

/-- An index of the result array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Every index of the result array lies in the block of the point whose number is its row divided by 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the call the result array is the product of the two operand arrays as the call found them. -/
theorem final (c : Dev nD) :
    (dat0 V c).arrAt 2 cfg0.N = Body.proj (V c (Pipeline.arrRef spec0 0)) (V c (Pipeline.arrRef spec0 1)) :=
  (dat0 V c).arrAt_eq_of_cover 2 _ (fun t _ => flushed_eq V c t) cover

end Cert.KernelIdeal.Call0

end
-- ==== Proof.Call1.lean ====
/-
  Call 1 (an aggregation step): what its result array holds after the call, as one function of the arrays the call
  finds in its three operands.

  The grid has ten points; point t takes rows 5000 t .. 5000 t + 4999 of the neighbour sums and of the self-loop
  terms, and the one bias row, and writes the same rows of the result. The row blocks are disjoint and together are
  all 50000 rows, so the result array ends holding, at (r, q), the maximum of sum (r, q) + self (r, q) + bias (0, q)
  and zero.
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both row-blocked operands move with the result, every other block index
    is zero, and the result's row block index is at most 9. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point t writes back is block t of the aggregation step of the three operand arrays. -/
theorem flushed_eq (c : Dev nD) (t : Fin cfg1.N) :
    (dat1 V c).flushed 3 t = ((cfg1.win 3).blk t).view.read (Elt Ideal)
      (Body.agg (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz]
  obtain ⟨e0, e1, e2, e3, e4, e5, e6, e7⟩ := idx_facts t
  funext j
  refine (Body.fin_apply1 (iblk1 V c 0 t) (iblk1 V c 1 t) (iblk1 V c 2 t) j).trans ?_
  show _ = Body.agg (V c (Pipeline.arrRef spec1 0)) (V c (Pipeline.arrRef spec1 1)) (V c (Pipeline.arrRef spec1 2)) (((cfg1.win 3).blk t).view.emb j)
  unfold Body.agg
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * (j 1).val = win1_3.index t (1 : Fin 2) * 64 + 1 * (j 1).val; omega
  have h2 : ((cfg1.win 2).blk t).view.emb (ix2 0 (j 1)) = ix2 0 ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega
  refine congrArg₂ max (congrArg₂ (· + ·) (congrArg₂ (· + ·) ?_ ?_) ?_) rfl
  · show V c (Pipeline.arrRef spec1 0) (((cfg1.win 0).blk t).view.emb j) = _
    exact congrArg _ h0
  · show V c (Pipeline.arrRef spec1 1) (((cfg1.win 1).blk t).view.emb j) = _
    exact congrArg _ h1
  · show V c (Pipeline.arrRef spec1 2) (((cfg1.win 2).blk t).view.emb (ix2 0 (j 1))) = _
    exact congrArg _ h2

/-- An index of the result array is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every index of the result array lies in the block of the point whose number is its row divided by 5000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the call the result array is the aggregation step of the three operand arrays as the call found them. -/
theorem final (c : Dev nD) :
    (dat1 V c).arrAt 3 cfg1.N
      = Body.agg (V c (Pipeline.arrRef spec1 0)) (V c (Pipeline.arrRef spec1 1)) (V c (Pipeline.arrRef spec1 2)) :=
  (dat1 V c).arrAt_eq_of_cover 3 _ (fun t _ => flushed_eq V c t) cover

end Cert.KernelIdeal.Call1

end
-- ==== Proof.Call2.lean ====
/-
  Call 2 (a projection): what its result array holds after the call, as one function of the arrays the call
  finds in its two operands.

  The grid has ten points; point t takes rows 5000 t .. 5000 t + 4999 of the left operand and the whole weight
  matrix, and writes rows 5000 t .. 5000 t + 4999 of the result. Row blocks are disjoint and together are all
  50000 rows, so the result array ends holding, at (r, q), the sum over k of left (r, k) * weight (k, q).
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's row block moves with the result's, every other block
    index is zero, and the result's row block index is at most 9. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the product of the two operand arrays. -/
theorem flushed_eq (c : Dev nD) (t : Fin cfg2.N) :
    (dat2 V c).flushed 2 t = ((cfg2.win 2).blk t).view.read (Elt Ideal)
      (Body.proj (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  funext j
  refine (Body.mm_apply2 (iblk2 V c 0 t) (iblk2 V c 1 t) j).trans ?_
  show _ = Body.proj (V c (Pipeline.arrRef spec2 0)) (V c (Pipeline.arrRef spec2 1)) (((cfg2.win 2).blk t).view.emb j)
  unfold Body.proj
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  refine congrArg₂ (· * ·) ?_ ?_
  · show V c (Pipeline.arrRef spec2 0) (((cfg2.win 0).blk t).view.emb (ix2 (j 0) k)) = _
    exact congrArg _ h0
  · show V c (Pipeline.arrRef spec2 1) (((cfg2.win 1).blk t).view.emb (ix2 k (j 1))) = _
    exact congrArg _ h1

/-- An index of the result array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Every index of the result array lies in the block of the point whose number is its row divided by 5000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the call the result array is the product of the two operand arrays as the call found them. -/
theorem final (c : Dev nD) :
    (dat2 V c).arrAt 2 cfg2.N = Body.proj (V c (Pipeline.arrRef spec2 0)) (V c (Pipeline.arrRef spec2 1)) :=
  (dat2 V c).arrAt_eq_of_cover 2 _ (fun t _ => flushed_eq V c t) cover

end Cert.KernelIdeal.Call2

end
-- ==== Proof.Call3.lean ====
/-
  Call 3 (an aggregation step): what its result array holds after the call, as one function of the arrays the call
  finds in its three operands.

  The grid has ten points; point t takes rows 5000 t .. 5000 t + 4999 of the neighbour sums and of the self-loop
  terms, and the one bias row, and writes the same rows of the result. The row blocks are disjoint and together are
  all 50000 rows, so the result array ends holding, at (r, q), the maximum of sum (r, q) + self (r, q) + bias (0, q)
  and zero.
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both row-blocked operands move with the result, every other block index
    is zero, and the result's row block index is at most 9. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 9 :=
  (by decide +kernel : ∀ t : Fin grid3.N, _)

/-- Every row block is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

set_option maxHeartbeats 1000000 in
/-- What point t writes back is block t of the aggregation step of the three operand arrays. -/
theorem flushed_eq (c : Dev nD) (t : Fin cfg3.N) :
    (dat3 V c).flushed 3 t = ((cfg3.win 3).blk t).view.read (Elt Ideal)
      (Body.agg (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x64) hz, View.ld_unit_zero (S := S1x64) hz]
  obtain ⟨e0, e1, e2, e3, e4, e5, e6, e7⟩ := idx_facts t
  funext j
  refine (Body.fin_apply3 (iblk3 V c 0 t) (iblk3 V c 1 t) (iblk3 V c 2 t) j).trans ?_
  show _ = Body.agg (V c (Pipeline.arrRef spec3 0)) (V c (Pipeline.arrRef spec3 1)) (V c (Pipeline.arrRef spec3 2)) (((cfg3.win 3).blk t).view.emb j)
  unfold Body.agg
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 64 + 1 * (j 1).val = win3_3.index t (1 : Fin 2) * 64 + 1 * (j 1).val; omega
  have h2 : ((cfg3.win 2).blk t).view.emb (ix2 0 (j 1)) = ix2 0 ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega
  refine congrArg₂ max (congrArg₂ (· + ·) (congrArg₂ (· + ·) ?_ ?_) ?_) rfl
  · show V c (Pipeline.arrRef spec3 0) (((cfg3.win 0).blk t).view.emb j) = _
    exact congrArg _ h0
  · show V c (Pipeline.arrRef spec3 1) (((cfg3.win 1).blk t).view.emb j) = _
    exact congrArg _ h1
  · show V c (Pipeline.arrRef spec3 2) (((cfg3.win 2).blk t).view.emb (ix2 0 (j 1))) = _
    exact congrArg _ h2

/-- An index of the result array is in point t's block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v62).slice (win3_3.rect t)).set ↔ _
  rw [View.set_slice_whole, Rect.mem_set_unit]
  exact Iff.rfl

/-- Every index of the result array lies in the block of the point whose number is its row divided by 5000. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After the call the result array is the aggregation step of the three operand arrays as the call found them. -/
theorem final (c : Dev nD) :
    (dat3 V c).arrAt 3 cfg3.N
      = Body.agg (V c (Pipeline.arrRef spec3 0)) (V c (Pipeline.arrRef spec3 1)) (V c (Pipeline.arrRef spec3 2)) :=
  (dat3 V c).arrAt_eq_of_cover 3 _ (fun t _ => flushed_eq V c t) cover

end Cert.KernelIdeal.Call3

end
-- ==== Proof.Call4.lean ====
/-
  Call 4 (a projection): what its result array holds after the call, as one function of the arrays the call
  finds in its two operands.

  The grid has ten points; point t takes rows 5000 t .. 5000 t + 4999 of the left operand and the whole weight
  matrix, and writes rows 5000 t .. 5000 t + 4999 of the result. Row blocks are disjoint and together are all
  50000 rows, so the result array ends holding, at (r, q), the sum over k of left (r, k) * weight (k, q).
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's row block moves with the result's, every other block
    index is zero, and the result's row block index is at most 9. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every row block is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- What point t writes back is block t of the product of the two operand arrays. -/
theorem flushed_eq (c : Dev nD) (t : Fin cfg4.N) :
    (dat4 V c).flushed 2 t = ((cfg4.win 2).blk t).view.read (Elt Ideal)
      (Body.proj (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  obtain ⟨e0, e1, e2, e3, e4, e5⟩ := idx_facts t
  funext j
  refine (Body.mm_apply4 (iblk4 V c 0 t) (iblk4 V c 1 t) j).trans ?_
  show _ = Body.proj (V c (Pipeline.arrRef spec4 0)) (V c (Pipeline.arrRef spec4 1)) (((cfg4.win 2).blk t).view.emb j)
  unfold Body.proj
  refine Finset.sum_congr rfl fun k _ => ?_
  have h0 : ((cfg4.win 0).blk t).view.emb (ix2 (j 0) k) = ix2 ((((cfg4.win 2).blk t).view.emb j) 0) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  have h1 : ((cfg4.win 1).blk t).view.emb (ix2 k (j 1)) = ix2 k ((((cfg4.win 2).blk t).view.emb j) 1) := by
    funext a; apply Fin.ext
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega
  refine congrArg₂ (· * ·) ?_ ?_
  · show V c (Pipeline.arrRef spec4 0) (((cfg4.win 0).blk t).view.emb (ix2 (j 0) k)) = _
    exact congrArg _ h0
  · show V c (Pipeline.arrRef spec4 1) (((cfg4.win 1).blk t).view.emb (ix2 k (j 1))) = _
    exact congrArg _ h1

/-- An index of the result array is in point t's block iff each coordinate is in the block's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v63).slice (win4_2.rect t)).set ↔ _
  rw [View.set_slice_whole, Rect.mem_set_unit]
  exact Iff.rfl

/-- Every index of the result array lies in the block of the point whose number is its row divided by 5000. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- After the call the result array is the product of the two operand arrays as the call found them. -/
theorem final (c : Dev nD) :
    (dat4 V c).arrAt 2 cfg4.N = Body.proj (V c (Pipeline.arrRef spec4 0)) (V c (Pipeline.arrRef spec4 1)) :=
  (dat4 V c).arrAt_eq_of_cover 2 _ (fun t _ => flushed_eq V c t) cover

end Cert.KernelIdeal.Call4

end
-- ==== Proof.Call5.lean ====
/-
  Call 5 (an aggregation step): what its result array holds after the call, as one function of the arrays the call
  finds in its three operands.

  The grid has ten points; point t takes rows 5000 t .. 5000 t + 4999 of the neighbour sums and of the self-loop
  terms, and the one bias row, and writes the same rows of the result. The row blocks are disjoint and together are
  all 50000 rows, so the result array ends holding, at (r, q), the maximum of sum (r, q) + self (r, q) + bias (0, q)
  and zero.
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both row-blocked operands move with the result, every other block index
    is zero, and the result's row block index is at most 9. -/
theorem idx_facts : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 2) = 0
    ∧ win5_2.index t (1 : Fin 2) = 0
    ∧ win5_3.index t (1 : Fin 2) = 0
    ∧ win5_3.index t (0 : Fin 2) ≤ 9 :=
  (by decide +kernel : ∀ t : Fin grid5.N, _)

/-- Every row block is some point's. -/
theorem idx_onto : ∀ q0 : Fin 10, ∃ t : Fin cfg5.N, win5_3.index t = ![q0.val, 0] :=
  (by decide +kernel : ∀ q0 : Fin 10, ∃ t : Fin grid5.N, win5_3.index t = ![q0.val, 0])

set_option maxHeartbeats 1000000 in
/-- What point t writes back is block t of the aggregation step of the three operand arrays. -/
theorem flushed_eq (c : Dev nD) (t : Fin cfg5.N) :
    (dat5 V c).flushed 3 t = ((cfg5.win 3).blk t).view.read (Elt Ideal)
      (Body.agg (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S5000x64) hz, View.ld_unit_zero (S := S1x64) hz]
  obtain ⟨e0, e1, e2, e3, e4, e5, e6, e7⟩ := idx_facts t
  funext j
  refine (Body.fin_apply5 (iblk5 V c 0 t) (iblk5 V c 1 t) (iblk5 V c 2 t) j).trans ?_
  show _ = Body.agg (V c (Pipeline.arrRef spec5 0)) (V c (Pipeline.arrRef spec5 1)) (V c (Pipeline.arrRef spec5 2)) (((cfg5.win 3).blk t).view.emb j)
  unfold Body.agg
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb j = ((cfg5.win 3).blk t).view.emb j := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 64 + 1 * (j 1).val = win5_3.index t (1 : Fin 2) * 64 + 1 * (j 1).val; omega
  have h2 : ((cfg5.win 2).blk t).view.emb (ix2 0 (j 1)) = ix2 0 ((((cfg5.win 3).blk t).view.emb j) 1) := by
    funext a; apply Fin.ext
    match a with
    | ⟨0, _⟩ => show win5_2.index t (0 : Fin 2) * 1 + 1 * 0 = 0; omega
    | ⟨1, _⟩ => show win5_2.index t (1 : Fin 2) * 64 + 1 * (j 1).val = win5_3.index t (1 : Fin 2) * 64 + 1 * (j 1).val; omega
  refine congrArg₂ max (congrArg₂ (· + ·) (congrArg₂ (· + ·) ?_ ?_) ?_) rfl
  · show V c (Pipeline.arrRef spec5 0) (((cfg5.win 0).blk t).view.emb j) = _
    exact congrArg _ h0
  · show V c (Pipeline.arrRef spec5 1) (((cfg5.win 1).blk t).view.emb j) = _
    exact congrArg _ h1
  · show V c (Pipeline.arrRef spec5 2) (((cfg5.win 2).blk t).view.emb (ix2 0 (j 1))) = _
    exact congrArg _ h2

/-- An index of the result array is in point t's block iff each coordinate is in the block's range on its axis. -/
theorem mem_blk (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v79).slice (win5_3.rect t)).set ↔ _
  rw [View.set_slice_whole, Rect.mem_set_unit]
  exact Iff.rfl

/-- Every index of the result array lies in the block of the point whose number is its row divided by 5000. -/
theorem cover (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- After the call the result array is the aggregation step of the three operand arrays as the call found them. -/
theorem final (c : Dev nD) :
    (dat5 V c).arrAt 3 cfg5.N
      = Body.agg (V c (Pipeline.arrRef spec5 0)) (V c (Pipeline.arrRef spec5 1)) (V c (Pipeline.arrRef spec5 2)) :=
  (dat5 V c).arrAt_eq_of_cover 3 _ (fun t _ => flushed_eq V c t) cover

end Cert.KernelIdeal.Call5

end
-- ==== Proof.Call6.lean ====
/-
  Call 6 (a projection): what its result array holds after the call, as one function of the arrays the call
  finds in its two operands.

  The grid has ten points; point t takes rows 5000 t .. 5000 t + 4999 of the left operand and the whole weight
  matrix, and writes rows 5000 t .. 5000 t + 4999 of the result. Row blocks are disjoint and together are all
  50000 rows, so the result array ends holding, at (r, q), the sum over k of left (r, k) * weight (k, q).
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's row block moves with the result's, every other block
    index is zero, and the result's row block index is at most 9. -/
theorem idx_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 9 :=
  (by decide +kernel : ∀ t : Fin grid6.N, _)

/-- Every row block is some point's. -/
theorem idx_onto : ∀ q0 : Fin 10, ∃ t : Fin cfg6.N, win6_2.index t = ![q0.val, 0] :=
  (by decide +kernel : ∀ q0 : Fin 10, ∃ t : Fin grid6.N, win6_2.index t = ![q0.val, 0])

set_option maxHeartbeats 1000000 in
/-- What point t writes back is block t of the product of the two operand arrays. -/
theorem flushed_eq (c : Dev nD) (t : Fin cfg6.N) :
    (dat6 V c).flushed 2 t = ((cfg6.win 2).blk t).view.read (Elt Ideal)
      (Body.proj (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S5000x64) hz, View.ld_unit_zero (S := S64x64) hz]
  obtain ⟨e0, e1, e2, e3, e4, e5⟩ := idx_facts t
  funext j
  refine (Body.mm_apply6 (iblk6 V c 0 t) (iblk6 V c 1 t) j).trans ?_
  show _ = Body.proj (V c (Pipeline.arrRef spec6 0)) (V c (Pipeline.arrRef spec6 1)) (((cfg6.win 2).blk t).view.emb j)
  unfold Body.proj
  refine Finset.sum_congr rfl fun k _ => ?_
  have h0 : ((cfg6.win 0).blk t).view.emb (ix2 (j 0) k) = ix2 ((((cfg6.win 2).blk t).view.emb j) 0) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 64 + 1 * k.val = k.val; omega
  have h1 : ((cfg6.win 1).blk t).view.emb (ix2 k (j 1)) = ix2 k ((((cfg6.win 2).blk t).view.emb j) 1) := by
    funext a; apply Fin.ext
    match a with
    | ⟨0, _⟩ => show win6_1.index t (0 : Fin 2) * 64 + 1 * k.val = k.val; omega
    | ⟨1, _⟩ => show win6_1.index t (1 : Fin 2) * 64 + 1 * (j 1).val = win6_2.index t (1 : Fin 2) * 64 + 1 * (j 1).val; omega
  refine congrArg₂ (· * ·) ?_ ?_
  · show V c (Pipeline.arrRef spec6 0) (((cfg6.win 0).blk t).view.emb (ix2 (j 0) k)) = _
    exact congrArg _ h0
  · show V c (Pipeline.arrRef spec6 1) (((cfg6.win 1).blk t).view.emb (ix2 k (j 1))) = _
    exact congrArg _ h1

/-- An index of the result array is in point t's block iff each coordinate is in the block's range on its axis. -/
theorem mem_blk (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v80).slice (win6_2.rect t)).set ↔ _
  rw [View.set_slice_whole, Rect.mem_set_unit]
  exact Iff.rfl

/-- Every index of the result array lies in the block of the point whose number is its row divided by 5000. -/
theorem cover (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := idx_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- After the call the result array is the product of the two operand arrays as the call found them. -/
theorem final (c : Dev nD) :
    (dat6 V c).arrAt 2 cfg6.N = Body.proj (V c (Pipeline.arrRef spec6 0)) (V c (Pipeline.arrRef spec6 1)) :=
  (dat6 V c).arrAt_eq_of_cover 2 _ (fun t _ => flushed_eq V c t) cover

end Cert.KernelIdeal.Call6

end
-- ==== Proof.Call7.lean ====
/-
  Call 7 (an aggregation step): what its result array holds after the call, as one function of the arrays the call
  finds in its three operands.

  The grid has ten points; point t takes rows 5000 t .. 5000 t + 4999 of the neighbour sums and of the self-loop
  terms, and the one bias row, and writes the same rows of the result. The row blocks are disjoint and together are
  all 50000 rows, so the result array ends holding, at (r, q), the maximum of sum (r, q) + self (r, q) + bias (0, q)
  and zero.
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call7

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both row-blocked operands move with the result, every other block index
    is zero, and the result's row block index is at most 9. -/
theorem idx_facts : ∀ t : Fin cfg7.N, win7_0.index t (0 : Fin 2) = win7_3.index t (0 : Fin 2)
    ∧ win7_0.index t (1 : Fin 2) = 0
    ∧ win7_1.index t (0 : Fin 2) = win7_3.index t (0 : Fin 2)
    ∧ win7_1.index t (1 : Fin 2) = 0
    ∧ win7_2.index t (0 : Fin 2) = 0
    ∧ win7_2.index t (1 : Fin 2) = 0
    ∧ win7_3.index t (1 : Fin 2) = 0
    ∧ win7_3.index t (0 : Fin 2) ≤ 9 :=
  (by decide +kernel : ∀ t : Fin grid7.N, _)

/-- Every row block is some point's. -/
theorem idx_onto : ∀ q0 : Fin 10, ∃ t : Fin cfg7.N, win7_3.index t = ![q0.val, 0] :=
  (by decide +kernel : ∀ q0 : Fin 10, ∃ t : Fin grid7.N, win7_3.index t = ![q0.val, 0])

/-- What point t writes back is block t of the aggregation step of the three operand arrays. -/
theorem flushed_eq (c : Dev nD) (t : Fin cfg7.N) :
    (dat7 V c).flushed 3 t = ((cfg7.win 3).blk t).view.read (Elt Ideal)
      (Body.agg (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz]
  simp only [View.ld_unit_zero (S := S5000x64) hz, View.ld_unit_zero (S := S1x64) hz]
  obtain ⟨e0, e1, e2, e3, e4, e5, e6, e7⟩ := idx_facts t
  funext j
  refine (Body.fin_apply7 (iblk7 V c 0 t) (iblk7 V c 1 t) (iblk7 V c 2 t) j).trans ?_
  show _ = Body.agg (V c (Pipeline.arrRef spec7 0)) (V c (Pipeline.arrRef spec7 1)) (V c (Pipeline.arrRef spec7 2)) (((cfg7.win 3).blk t).view.emb j)
  unfold Body.agg
  have h0 : ((cfg7.win 0).blk t).view.emb j = ((cfg7.win 3).blk t).view.emb j := by
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * (j 1).val = win7_3.index t (1 : Fin 2) * 64 + 1 * (j 1).val; omega
  have h1 : ((cfg7.win 1).blk t).view.emb j = ((cfg7.win 3).blk t).view.emb j := by
    funext a; apply Fin.ext
    match a with
    | ⟨0, _⟩ => show win7_1.index t (0 : Fin 2) * 5000 + 1 * (j 0).val = win7_3.index t (0 : Fin 2) * 5000 + 1 * (j 0).val; omega
    | ⟨1, _⟩ => show win7_1.index t (1 : Fin 2) * 64 + 1 * (j 1).val = win7_3.index t (1 : Fin 2) * 64 + 1 * (j 1).val; omega
  have h2 : ((cfg7.win 2).blk t).view.emb (ix2 0 (j 1)) = ix2 0 ((((cfg7.win 3).blk t).view.emb j) 1) := by
    funext a; apply Fin.ext
    match a with
    | ⟨0, _⟩ => show win7_2.index t (0 : Fin 2) * 1 + 1 * 0 = 0; omega
    | ⟨1, _⟩ => show win7_2.index t (1 : Fin 2) * 64 + 1 * (j 1).val = win7_3.index t (1 : Fin 2) * 64 + 1 * (j 1).val; omega
  refine congrArg₂ max (congrArg₂ (· + ·) (congrArg₂ (· + ·) ?_ ?_) ?_) rfl
  · show V c (Pipeline.arrRef spec7 0) (((cfg7.win 0).blk t).view.emb j) = _
    exact congrArg _ h0
  · show V c (Pipeline.arrRef spec7 1) (((cfg7.win 1).blk t).view.emb j) = _
    exact congrArg _ h1
  · show V c (Pipeline.arrRef spec7 2) (((cfg7.win 2).blk t).view.emb (ix2 0 (j 1))) = _
    exact congrArg _ h2

/-- An index of the result array is in point t's block iff each coordinate is in the block's range on its axis. -/
theorem mem_blk (t : Fin cfg7.N) (i : S50000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v96).slice (win7_3.rect t)).set ↔ _
  rw [View.set_slice_whole, Rect.mem_set_unit]
  exact Iff.rfl

/-- Every index of the result array lies in the block of the point whose number is its row divided by 5000. -/
theorem cover (i : S50000x64.Idx) : ∃ t : Fin cfg7.N, (cfg7.win 3).flush t = true ∧ i ∈ ((cfg7.win 3).blk t).view.set := by
  have hi0 : (i 0).val < 50000 := (i 0).isLt
  have hi1 : (i 1).val < 64 := (i 1).isLt
  obtain ⟨t, ht⟩ := idx_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- After the call the result array is the aggregation step of the three operand arrays as the call found them. -/
theorem final (c : Dev nD) :
    (dat7 V c).arrAt 3 cfg7.N
      = Body.agg (V c (Pipeline.arrRef spec7 0)) (V c (Pipeline.arrRef spec7 1)) (V c (Pipeline.arrRef spec7 2)) :=
  (dat7 V c).arrAt_eq_of_cover 3 _ (fun t _ => flushed_eq V c t) cover

end Cert.KernelIdeal.Call7

end
-- ==== Proof.Call8.lean ====
/-
  Call 8 (a projection): what its result array holds after the call, as one function of the arrays the call
  finds in its two operands.

  The grid has ten points; point t takes rows 5000 t .. 5000 t + 4999 of the left operand and the whole weight
  matrix, and writes rows 5000 t .. 5000 t + 4999 of the result. Row blocks are disjoint and together are all
  50000 rows, so the result array ends holding, at (r, q), the sum over k of left (r, k) * weight (k, q).
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call8

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's row block moves with the result's, every other block
    index is zero, and the result's row block index is at most 9. -/
theorem idx_facts : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (1 : Fin 2) = 0
    ∧ win8_2.index t (0 : Fin 2) ≤ 9 :=
  (by decide +kernel : ∀ t : Fin grid8.N, _)

/-- Every row block is some point's. -/
theorem idx_onto : ∀ q0 : Fin 10, ∃ t : Fin cfg8.N, win8_2.index t = ![q0.val, 0] :=
  (by decide +kernel : ∀ q0 : Fin 10, ∃ t : Fin grid8.N, win8_2.index t = ![q0.val, 0])

/-- What point t writes back is block t of the product of the two operand arrays. -/
theorem flushed_eq (c : Dev nD) (t : Fin cfg8.N) :
    (dat8 V c).flushed 2 t = ((cfg8.win 2).blk t).view.read (Elt Ideal)
      (Body.proj (V c (Pipeline.arrRef spec8 0)) (V c (Pipeline.arrRef spec8 1))) := by
  show (cfg8.win 2).cut (grid8.coords t) ((dat8 V c).after 2 t) = _
  rw [after8_2]
  unfold out8_2
  rw [View.canon_unit_zero hz]
  simp only [View.ld_unit_zero (S := S5000x64) hz, View.ld_unit_zero (S := S64x64) hz]
  obtain ⟨e0, e1, e2, e3, e4, e5⟩ := idx_facts t
  funext j
  refine (Body.mm_apply8 (iblk8 V c 0 t) (iblk8 V c 1 t) j).trans ?_
  show _ = Body.proj (V c (Pipeline.arrRef spec8 0)) (V c (Pipeline.arrRef spec8 1)) (((cfg8.win 2).blk t).view.emb j)
  unfold Body.proj
  refine Finset.sum_congr rfl fun k _ => ?_
  have h0 : ((cfg8.win 0).blk t).view.emb (ix2 (j 0) k) = ix2 ((((cfg8.win 2).blk t).view.emb j) 0) k := by
    funext a; apply Fin.ext
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 64 + 1 * k.val = k.val; omega
  have h1 : ((cfg8.win 1).blk t).view.emb (ix2 k (j 1)) = ix2 k ((((cfg8.win 2).blk t).view.emb j) 1) := by
    funext a; apply Fin.ext
    match a with
    | ⟨0, _⟩ => show win8_1.index t (0 : Fin 2) * 64 + 1 * k.val = k.val; omega
    | ⟨1, _⟩ => show win8_1.index t (1 : Fin 2) * 64 + 1 * (j 1).val = win8_2.index t (1 : Fin 2) * 64 + 1 * (j 1).val; omega
  refine congrArg₂ (· * ·) ?_ ?_
  · show V c (Pipeline.arrRef spec8 0) (((cfg8.win 0).blk t).view.emb (ix2 (j 0) k)) = _
    exact congrArg _ h0
  · show V c (Pipeline.arrRef spec8 1) (((cfg8.win 1).blk t).view.emb (ix2 k (j 1))) = _
    exact congrArg _ h1

/-- An index of the result array is in point t's block iff each coordinate is in the block's range on its axis. -/
theorem mem_blk (t : Fin cfg8.N) (i : S50000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v97).slice (win8_2.rect t)).set ↔ _
  rw [View.set_slice_whole, Rect.mem_set_unit]
  exact Iff.rfl

/-- Every index of the result array lies in the block of the point whose number is its row divided by 5000. -/
theorem cover (i : S50000x64.Idx) : ∃ t : Fin cfg8.N, (cfg8.win 2).flush t = true ∧ i ∈ ((cfg8.win 2).blk t).view.set := by
  have hi0 : (i 0).val < 50000 := (i 0).isLt
  have hi1 : (i 1).val < 64 := (i 1).isLt
  obtain ⟨t, ht⟩ := idx_onto ⟨(i 0).val / 5000, by omega⟩
  have q0 : win8_2.index t (0 : Fin 2) = (i 0).val / 5000 := congrFun ht 0
  have q1 : win8_2.index t (1 : Fin 2) = 0 := congrFun ht 1
  refine ⟨t, flush8_2 t, ?_⟩
  rw [mem_blk]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 64 ≤ (i 1).val ∧ (i 1).val < win8_2.index t (1 : Fin 2) * 64 + 64; omega

/-- After the call the result array is the product of the two operand arrays as the call found them. -/
theorem final (c : Dev nD) :
    (dat8 V c).arrAt 2 cfg8.N = Body.proj (V c (Pipeline.arrRef spec8 0)) (V c (Pipeline.arrRef spec8 1)) :=
  (dat8 V c).arrAt_eq_of_cover 2 _ (fun t _ => flushed_eq V c t) cover

end Cert.KernelIdeal.Call8

end
-- ==== Proof.Call9.lean ====
/-
  Call 9 (an aggregation step): what its result array holds after the call, as one function of the arrays the call
  finds in its three operands.

  The grid has ten points; point t takes rows 5000 t .. 5000 t + 4999 of the neighbour sums and of the self-loop
  terms, and the one bias row, and writes the same rows of the result. The row blocks are disjoint and together are
  all 50000 rows, so the result array ends holding, at (r, q), the maximum of sum (r, q) + self (r, q) + bias (0, q)
  and zero.
-/
import proofs.«104814_j84112639525116_1_alg».proof.Proof.Payloads
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call9

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both row-blocked operands move with the result, every other block index
    is zero, and the result's row block index is at most 9. -/
theorem idx_facts : ∀ t : Fin cfg9.N, win9_0.index t (0 : Fin 2) = win9_3.index t (0 : Fin 2)
    ∧ win9_0.index t (1 : Fin 2) = 0
    ∧ win9_1.index t (0 : Fin 2) = win9_3.index t (0 : Fin 2)
    ∧ win9_1.index t (1 : Fin 2) = 0
    ∧ win9_2.index t (0 : Fin 2) = 0
    ∧ win9_2.index t (1 : Fin 2) = 0
    ∧ win9_3.index t (1 : Fin 2) = 0
    ∧ win9_3.index t (0 : Fin 2) ≤ 9 :=
  (by decide +kernel : ∀ t : Fin grid9.N, _)

/-- Every row block is some point's. -/
theorem idx_onto : ∀ q0 : Fin 10, ∃ t : Fin cfg9.N, win9_3.index t = ![q0.val, 0] :=
  (by decide +kernel : ∀ q0 : Fin 10, ∃ t : Fin grid9.N, win9_3.index t = ![q0.val, 0])

/-- What point t writes back is block t of the aggregation step of the three operand arrays. -/
theorem flushed_eq (c : Dev nD) (t : Fin cfg9.N) :
    (dat9 V c).flushed 3 t = ((cfg9.win 3).blk t).view.read (Elt Ideal)
      (Body.agg (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero hz]
  simp only [View.ld_unit_zero (S := S5000x64) hz, View.ld_unit_zero (S := S1x64) hz]
  obtain ⟨e0, e1, e2, e3, e4, e5, e6, e7⟩ := idx_facts t
  funext j
  refine (Body.fin_apply9 (iblk9 V c 0 t) (iblk9 V c 1 t) (iblk9 V c 2 t) j).trans ?_
  show _ = Body.agg (V c (Pipeline.arrRef spec9 0)) (V c (Pipeline.arrRef spec9 1)) (V c (Pipeline.arrRef spec9 2)) (((cfg9.win 3).blk t).view.emb j)
  unfold Body.agg
  have h0 : ((cfg9.win 0).blk t).view.emb j = ((cfg9.win 3).blk t).view.emb j := by
    funext a; apply Fin.ext
    match a with
    | ⟨0, _⟩ => show win9_0.index t (0 : Fin 2) * 5000 + 1 * (j 0).val = win9_3.index t (0 : Fin 2) * 5000 + 1 * (j 0).val; omega
    | ⟨1, _⟩ => show win9_0.index t (1 : Fin 2) * 64 + 1 * (j 1).val = win9_3.index t (1 : Fin 2) * 64 + 1 * (j 1).val; omega
  have h1 : ((cfg9.win 1).blk t).view.emb j = ((cfg9.win 3).blk t).view.emb j := by
    funext a; apply Fin.ext
    match a with
    | ⟨0, _⟩ => show win9_1.index t (0 : Fin 2) * 5000 + 1 * (j 0).val = win9_3.index t (0 : Fin 2) * 5000 + 1 * (j 0).val; omega
    | ⟨1, _⟩ => show win9_1.index t (1 : Fin 2) * 64 + 1 * (j 1).val = win9_3.index t (1 : Fin 2) * 64 + 1 * (j 1).val; omega
  have h2 : ((cfg9.win 2).blk t).view.emb (ix2 0 (j 1)) = ix2 0 ((((cfg9.win 3).blk t).view.emb j) 1) := by
    funext a; apply Fin.ext
    match a with
    | ⟨0, _⟩ => show win9_2.index t (0 : Fin 2) * 1 + 1 * 0 = 0; omega
    | ⟨1, _⟩ => show win9_2.index t (1 : Fin 2) * 64 + 1 * (j 1).val = win9_3.index t (1 : Fin 2) * 64 + 1 * (j 1).val; omega
  refine congrArg₂ max (congrArg₂ (· + ·) (congrArg₂ (· + ·) ?_ ?_) ?_) rfl
  · show V c (Pipeline.arrRef spec9 0) (((cfg9.win 0).blk t).view.emb j) = _
    exact congrArg _ h0
  · show V c (Pipeline.arrRef spec9 1) (((cfg9.win 1).blk t).view.emb j) = _
    exact congrArg _ h1
  · show V c (Pipeline.arrRef spec9 2) (((cfg9.win 2).blk t).view.emb (ix2 0 (j 1))) = _
    exact congrArg _ h2

/-- An index of the result array is in point t's block iff each coordinate is in the block's range on its axis. -/
theorem mem_blk (t : Fin cfg9.N) (i : S50000x64.Idx) :
    i ∈ ((cfg9.win 3).blk t).view.set ↔ ∀ a : Fin 2, win9_3.index t a * S5000x64.size a ≤ (i a).val ∧ (i a).val < win9_3.index t a * S5000x64.size a + S5000x64.size a := by
  show i ∈ ((View.whole main_v113).slice (win9_3.rect t)).set ↔ _
  rw [View.set_slice_whole, Rect.mem_set_unit]
  exact Iff.rfl

/-- Every index of the result array lies in the block of the point whose number is its row divided by 5000. -/
theorem cover (i : S50000x64.Idx) : ∃ t : Fin cfg9.N, (cfg9.win 3).flush t = true ∧ i ∈ ((cfg9.win 3).blk t).view.set := by
  have hi0 : (i 0).val < 50000 := (i 0).isLt
  have hi1 : (i 1).val < 64 := (i 1).isLt
  obtain ⟨t, ht⟩ := idx_onto ⟨(i 0).val / 5000, by omega⟩
  have q0 : win9_3.index t (0 : Fin 2) = (i 0).val / 5000 := congrFun ht 0
  have q1 : win9_3.index t (1 : Fin 2) = 0 := congrFun ht 1
  refine ⟨t, flush9_3 t, ?_⟩
  rw [mem_blk]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 64 ≤ (i 1).val ∧ (i 1).val < win9_3.index t (1 : Fin 2) * 64 + 64; omega

/-- After the call the result array is the aggregation step of the three operand arrays as the call found them. -/
theorem final (c : Dev nD) :
    (dat9 V c).arrAt 3 cfg9.N
      = Body.agg (V c (Pipeline.arrRef spec9 0)) (V c (Pipeline.arrRef spec9 1)) (V c (Pipeline.arrRef spec9 2)) :=
  (dat9 V c).arrAt_eq_of_cover 3 _ (fun t _ => flushed_eq V c t) cover

end Cert.KernelIdeal.Call9

end
-- ==== Proof.Call10.lean ====
/-
  Call 10 (the dense head): what its result array holds after the call.

  The grid has one point and every window's block is its whole array, so the one point reads the five operand arrays
  whole and writes the whole 512 x 1 result: the head's formula of the five arrays.
-/
import proofs.«104814_j84112639525116_1_alg».proof.Proof.HeadBody
import proofs.«104814_j84112639525116_1_alg».proof.Proof.Gen.KernelIdeal.Frame

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call10

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Every block index of every window is zero at the one grid point. -/
theorem idx_facts : ∀ t : Fin cfg10.N, win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

theorem a_point : ∃ t : Fin cfg10.N, True := (by decide +kernel : ∃ t : Fin grid10.N, True)

/-- What the one point writes back is the head's formula of the five operand arrays. -/
theorem flushed_eq (c : Dev nD) (t : Fin cfg10.N) :
    (dat10 V c).flushed 5 t = ((cfg10.win 5).blk t).view.read (Elt Ideal)
      (Body.head (V c (Pipeline.arrRef spec10 0)) (V c (Pipeline.arrRef spec10 1)) (V c (Pipeline.arrRef spec10 2))
        (V c (Pipeline.arrRef spec10 3)) (V c (Pipeline.arrRef spec10 4))) := by
  show (cfg10.win 5).cut (grid10.coords t) ((dat10 V c).after 5 t) = _
  rw [after10_5]
  unfold out10_5
  rw [View.canon_unit_zero hz]
  simp only [View.ld_unit_zero (S := S512x64) hz, View.ld_unit_zero (S := S64x128) hz, View.ld_unit_zero (S := S1x128) hz,
    View.ld_unit_zero (S := S128x1) hz, View.ld_unit_zero (S := S1x1) hz]
  obtain ⟨e00, e01, e10, e11, e20, e21, e30, e31, e40, e41, e50, e51⟩ := idx_facts t
  funext j
  refine (Body.head_apply (iblk10 V c 0 t) (iblk10 V c 1 t) (iblk10 V c 2 t) (iblk10 V c 3 t) (iblk10 V c 4 t) j).trans ?_
  show _ = Body.head (V c (Pipeline.arrRef spec10 0)) (V c (Pipeline.arrRef spec10 1)) (V c (Pipeline.arrRef spec10 2)) (V c (Pipeline.arrRef spec10 3)) (V c (Pipeline.arrRef spec10 4)) (((cfg10.win 5).blk t).view.emb j)
  unfold Body.head Body.hidden
  refine congrArg₂ (· + ·) (Finset.sum_congr rfl fun u _ => congrArg₂ (· * ·)
    (congrArg₂ max (congrArg₂ (· + ·) (Finset.sum_congr rfl fun k _ => congrArg₂ (· * ·) ?_ ?_) ?_) rfl) ?_) ?_
  · show V c (Pipeline.arrRef spec10 0) (((cfg10.win 0).blk t).view.emb (ix2 ((ix2 (j 0) u : S512x128.Idx) 0) k)) = _
    refine congrArg _ (funext fun a => Fin.ext ?_)
    match a with
    | ⟨0, _⟩ => show win10_0.index t (0 : Fin 2) * 512 + 1 * (j 0).val = win10_5.index t (0 : Fin 2) * 512 + 1 * (j 0).val; omega
    | ⟨1, _⟩ => show win10_0.index t (1 : Fin 2) * 64 + 1 * k.val = k.val; omega
  · show V c (Pipeline.arrRef spec10 1) (((cfg10.win 1).blk t).view.emb (ix2 k ((ix2 (j 0) u : S512x128.Idx) 1))) = _
    refine congrArg _ (funext fun a => Fin.ext ?_)
    match a with
    | ⟨0, _⟩ => show win10_1.index t (0 : Fin 2) * 64 + 1 * k.val = k.val; omega
    | ⟨1, _⟩ => show win10_1.index t (1 : Fin 2) * 128 + 1 * u.val = u.val; omega
  · show V c (Pipeline.arrRef spec10 2) (((cfg10.win 2).blk t).view.emb (ix2 0 ((ix2 (j 0) u : S512x128.Idx) 1))) = _
    refine congrArg _ (funext fun a => Fin.ext ?_)
    match a with
    | ⟨0, _⟩ => show win10_2.index t (0 : Fin 2) * 1 + 1 * 0 = 0; omega
    | ⟨1, _⟩ => show win10_2.index t (1 : Fin 2) * 128 + 1 * u.val = u.val; omega
  · show V c (Pipeline.arrRef spec10 3) (((cfg10.win 3).blk t).view.emb (ix2 u (j 1))) = _
    refine congrArg _ (funext fun a => Fin.ext ?_)
    match a with
    | ⟨0, _⟩ => show win10_3.index t (0 : Fin 2) * 128 + 1 * u.val = u.val; omega
    | ⟨1, _⟩ => show win10_3.index t (1 : Fin 2) * 1 + 1 * (j 1).val = win10_5.index t (1 : Fin 2) * 1 + 1 * (j 1).val; omega
  · show V c (Pipeline.arrRef spec10 4) (((cfg10.win 4).blk t).view.emb (ix2 0 0)) = _
    refine congrArg _ (funext fun a => Fin.ext ?_)
    match a with
    | ⟨0, _⟩ => show win10_4.index t (0 : Fin 2) * 1 + 1 * 0 = 0; omega
    | ⟨1, _⟩ => show win10_4.index t (1 : Fin 2) * 1 + 1 * 0 = 0; omega

/-- An index of the result array is in the point's block iff each coordinate is in the block's range on its axis. -/
theorem mem_blk (t : Fin cfg10.N) (i : S512x1.Idx) :
    i ∈ ((cfg10.win 5).blk t).view.set ↔ ∀ a : Fin 2, win10_5.index t a * S512x1.size a ≤ (i a).val ∧ (i a).val < win10_5.index t a * S512x1.size a + S512x1.size a := by
  show i ∈ ((View.whole main_v119).slice (win10_5.rect t)).set ↔ _
  rw [View.set_slice_whole, Rect.mem_set_unit]
  exact Iff.rfl

/-- The one block is the whole result array. -/
theorem cover (i : S512x1.Idx) : ∃ t : Fin cfg10.N, (cfg10.win 5).flush t = true ∧ i ∈ ((cfg10.win 5).blk t).view.set := by
  have hi0 : (i 0).val < 512 := (i 0).isLt
  have hi1 : (i 1).val < 1 := (i 1).isLt
  obtain ⟨t, -⟩ := a_point
  obtain ⟨e00, e01, e10, e11, e20, e21, e30, e31, e40, e41, e50, e51⟩ := idx_facts t
  refine ⟨t, flush10_5 t, ?_⟩
  rw [mem_blk]
  intro a
  match a with
  | ⟨0, _⟩ => show win10_5.index t (0 : Fin 2) * 512 ≤ (i 0).val ∧ (i 0).val < win10_5.index t (0 : Fin 2) * 512 + 512; omega
  | ⟨1, _⟩ => show win10_5.index t (1 : Fin 2) * 1 ≤ (i 1).val ∧ (i 1).val < win10_5.index t (1 : Fin 2) * 1 + 1; omega

/-- After the call the result array is the head's formula of the five operand arrays as the call found them. -/
theorem final (c : Dev nD) :
    (dat10 V c).arrAt 5 cfg10.N
      = Body.head (V c (Pipeline.arrRef spec10 0)) (V c (Pipeline.arrRef spec10 1)) (V c (Pipeline.arrRef spec10 2))
        (V c (Pipeline.arrRef spec10 3)) (V c (Pipeline.arrRef spec10 4)) :=
  (dat10 V c).arrAt_eq_of_cover 5 _ (fun t _ => flushed_eq V c t) cover

end Cert.KernelIdeal.Call10

end
-- ==== Proof.Chain.lean ====
/-
  The kernel's buffers at each boundary of its run, matched to the reference's stages.

  Both programs compute the same five graph-convolution layers, a pooling over graphs and a two-layer dense head.
  For each layer: the projection call's result is the reference's product of the previous layer's output by the
  layer's weights; the host operations between the calls (gather along the edges, scale by the edge normaliser,
  scatter-add into the destination rows; the self-loop term) are the reference's own operations on equal operands,
  up to how a vector is made into a one-column array; and the aggregation call's result is the reference's sum, bias
  and maximum with zero. The pooled rows then go through the dense head.
-/
import proofs.«104814_j84112639525116_1_alg».proof.Proof.Bridge
import proofs.«104814_j84112639525116_1_alg».proof.Proof.Call0
import proofs.«104814_j84112639525116_1_alg».proof.Proof.Call1
import proofs.«104814_j84112639525116_1_alg».proof.Proof.Call2
import proofs.«104814_j84112639525116_1_alg».proof.Proof.Call3
import proofs.«104814_j84112639525116_1_alg».proof.Proof.Call4
import proofs.«104814_j84112639525116_1_alg».proof.Proof.Call5
import proofs.«104814_j84112639525116_1_alg».proof.Proof.Call6
import proofs.«104814_j84112639525116_1_alg».proof.Proof.Call7
import proofs.«104814_j84112639525116_1_alg».proof.Proof.Call8
import proofs.«104814_j84112639525116_1_alg».proof.Proof.Call9
import proofs.«104814_j84112639525116_1_alg».proof.Proof.Call10
import proofs.«104814_j84112639525116_1_alg».proof.Proof.Gen.KernelIdeal.Frame
import proofs.«104814_j84112639525116_1_alg».proof.Proof.Gen.ReferenceIdeal.Read

set_option maxRecDepth 16384

noncomputable section

open Idealize.ShloMosaic Idealize.ShloMosaic.TcCoe Idealize.ShloMosaic.ValueIdx Idealize.SL.Sem
open Idealize.ShloMosaic.StableHlo

namespace Cert.KernelIdeal.Chain

open Cert.KernelIdeal Cert.KernelIdeal.Gen
open Cert.ReferenceIdeal.Read (val_main_v203 val_main_v212 val_main_v11 val_main_v39 val_main_v43 val_main_v48 val_main_v49 val_main_v77 val_main_v81 val_main_v86 val_main_v87 val_main_v115 val_main_v119 val_main_v124 val_main_v125 val_main_v153 val_main_v157 val_main_v162 val_main_v163 val_main_v191 val_main_v195 val_main_v200)

variable (m : (ℓ : Loc nD τ sig) → Buf (Elt Ideal) ℓ) (ρ : Dev nD → PrngReg) (c : Dev nD)

/-! A call leaves every buffer that is not one of its arrays as it found it. -/
theorem keep2 (b : Ref sig .tc) (hb : ∀ w, Pipeline.arrRef spec0 w ≠ b) :
    W2 m ρ c (no_index (Proc.devRef .tc b)) = W1 m ρ c (Proc.devRef .tc b) := W2_of_ne m ρ c b hb
theorem keep4 (b : Ref sig .tc) (hb : ∀ w, Pipeline.arrRef spec1 w ≠ b) :
    W4 m ρ c (no_index (Proc.devRef .tc b)) = W3 m ρ c (Proc.devRef .tc b) := W4_of_ne m ρ c b hb
theorem keep5 (b : Ref sig .tc) (hb : ∀ w, Pipeline.arrRef spec2 w ≠ b) :
    W5 m ρ c (no_index (Proc.devRef .tc b)) = W4 m ρ c (Proc.devRef .tc b) := W5_of_ne m ρ c b hb
theorem keep7 (b : Ref sig .tc) (hb : ∀ w, Pipeline.arrRef spec3 w ≠ b) :
    W7 m ρ c (no_index (Proc.devRef .tc b)) = W6 m ρ c (Proc.devRef .tc b) := W7_of_ne m ρ c b hb
theorem keep8 (b : Ref sig .tc) (hb : ∀ w, Pipeline.arrRef spec4 w ≠ b) :
    W8 m ρ c (no_index (Proc.devRef .tc b)) = W7 m ρ c (Proc.devRef .tc b) := W8_of_ne m ρ c b hb
theorem keep10 (b : Ref sig .tc) (hb : ∀ w, Pipeline.arrRef spec5 w ≠ b) :
    W10 m ρ c (no_index (Proc.devRef .tc b)) = W9 m ρ c (Proc.devRef .tc b) := W10_of_ne m ρ c b hb
theorem keep11 (b : Ref sig .tc) (hb : ∀ w, Pipeline.arrRef spec6 w ≠ b) :
    W11 m ρ c (no_index (Proc.devRef .tc b)) = W10 m ρ c (Proc.devRef .tc b) := W11_of_ne m ρ c b hb
theorem keep13 (b : Ref sig .tc) (hb : ∀ w, Pipeline.arrRef spec7 w ≠ b) :
    W13 m ρ c (no_index (Proc.devRef .tc b)) = W12 m ρ c (Proc.devRef .tc b) := W13_of_ne m ρ c b hb
theorem keep14 (b : Ref sig .tc) (hb : ∀ w, Pipeline.arrRef spec8 w ≠ b) :
    W14 m ρ c (no_index (Proc.devRef .tc b)) = W13 m ρ c (Proc.devRef .tc b) := W14_of_ne m ρ c b hb
theorem keep16 (b : Ref sig .tc) (hb : ∀ w, Pipeline.arrRef spec9 w ≠ b) :
    W16 m ρ c (no_index (Proc.devRef .tc b)) = W15 m ρ c (Proc.devRef .tc b) := W16_of_ne m ρ c b hb
theorem keep18 (b : Ref sig .tc) (hb : ∀ w, Pipeline.arrRef spec10 w ≠ b) :
    W18 m ρ c (no_index (Proc.devRef .tc b)) = W17 m ρ c (Proc.devRef .tc b) := W18_of_ne m ρ c b hb

/-- Reads a buffer at a boundary back to where it was last written: a call leaves every buffer that is not one of
    its arrays as it was; a host operation leaves every buffer but its result as it was, and its result is its
    function of its operands. -/
macro "kwalk" : tactic =>
  `(tactic| simp (disch := decide) only [W1, W3, W6, W9, W12, W15, W17,
      hostOps0, hostOps1, hostOps3, hostOps5, hostOps7, hostOps9, hostOps10,
      keep2, keep4, keep5, keep7, keep8, keep10, keep11, keep13, keep14, keep16, keep18,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-! ## Layer 1 -/

/-- The projection call's result array is the product of the arrays it found in its two operands. -/
theorem call0_result : W2 m ρ c (Proc.devRef .tc main_v29)
    = Body.proj (W1 m ρ c (Proc.devRef .tc main_arg0)) (W1 m ρ c (Proc.devRef .tc main_arg3)) :=
  (W2_arr m ρ c 2).trans (Call0.final (V1 m ρ) c)

/-- It is the reference's product for this layer. -/
theorem proj0 :
    W2 m ρ c (Proc.devRef .tc main_v29) = val_main_v11 (F := Ideal) (m ((c : Thread nD τ).loc main_arg0)) (m ((c : Thread nD τ).loc main_arg3)) := by
  rw [call0_result]
  have eh : W1 m ρ c (Proc.devRef .tc main_arg0) = (m ((c : Thread nD τ).loc main_arg0)) := by kwalk <;> rfl
  have ew : W1 m ρ c (Proc.devRef .tc main_arg3) = (m ((c : Thread nD τ).loc main_arg3)) := by kwalk <;> rfl
  rw [eh, ew, Cert.Bridge.proj_eq]

/-- The aggregation call's result array is the aggregation step of the arrays it found in its three operands. -/
theorem call1_result : W4 m ρ c (Proc.devRef .tc main_v45)
    = Body.agg (W3 m ρ c (Proc.devRef .tc main_v41)) (W3 m ρ c (Proc.devRef .tc main_v43)) (W3 m ρ c (Proc.devRef .tc main_v44)) :=
  (W4_arr m ρ c 3).trans (Call1.final (V3 m ρ) c)

/-- The bias operand is the layer's bias vector as one row. -/
theorem bias0 : W3 m ρ c (Proc.devRef .tc main_v44) = shapeCast S1x64 (m ((c : Thread nD τ).loc main_arg4)) shapeCasts_S64_S1x64 := by
  kwalk <;> rfl

set_option maxHeartbeats 1000000 in
/-- The self-loop operand is the reference's: the squared inverse root degree of the row times the projected row. -/
theorem self0 (HW : W2 m ρ c (Proc.devRef .tc main_v29) = val_main_v11 (F := Ideal) (m ((c : Thread nD τ).loc main_arg0)) (m ((c : Thread nD τ).loc main_arg3))) :
    W3 m ρ c (Proc.devRef .tc main_v43) = val_main_v43 (F := Ideal) (m ((c : Thread nD τ).loc main_arg0)) (m ((c : Thread nD τ).loc main_arg1)) (m ((c : Thread nD τ).loc main_arg3)) := by
  kwalk
  rw [HW]
  show mulf (F := Ideal) (broadcastInDim S50000x64 ![0, 1] bcast_S50000x1_S50000x64_0_1
      (shapeCast S50000x1 (Cert.ReferenceIdeal.Read.val_main_v40 (F := Ideal) (m ((c : Thread nD τ).loc main_arg1))) shapeCasts_S50000_S50000x1))
    (val_main_v11 (F := Ideal) (m ((c : Thread nD τ).loc main_arg0)) (m ((c : Thread nD τ).loc main_arg3))) = _
  rw [Cert.Bridge.column_nodes _ shapeCasts_S50000_S50000x1 bcast_S50000_S50000x1_0]
  rfl

set_option maxHeartbeats 2000000 in
/-- The neighbour-sum operand is the reference's: projected rows gathered along the edges, scaled by the edge
    normaliser, and added into the destination rows. -/
theorem sum0 (HW : W2 m ρ c (Proc.devRef .tc main_v29) = val_main_v11 (F := Ideal) (m ((c : Thread nD τ).loc main_arg0)) (m ((c : Thread nD τ).loc main_arg3))) :
    W3 m ρ c (Proc.devRef .tc main_v41) = val_main_v39 (F := Ideal) (m ((c : Thread nD τ).loc main_arg0)) (m ((c : Thread nD τ).loc main_arg1)) (m ((c : Thread nD τ).loc main_arg3)) := by
  kwalk
  rw [HW]
  show Host.scatterAdd (F := Ideal) scatter_S50000x64_S800000x1_S800000x64_1_0_0_1 (Cert.ReferenceIdeal.Read.val_main_v37 (F := Ideal))
      (Cert.ReferenceIdeal.Read.val_main_v38 (F := Ideal) (m ((c : Thread nD τ).loc main_arg1)))
      (mulf (F := Ideal) (Host.gather gather_S50000x64_S800000x1_S800000x64_1_0_n_n_0_1_164 (val_main_v11 (F := Ideal) (m ((c : Thread nD τ).loc main_arg0)) (m ((c : Thread nD τ).loc main_arg3)))
          (Cert.ReferenceIdeal.Read.val_main_v32 (F := Ideal) (m ((c : Thread nD τ).loc main_arg1))))
        (broadcastInDim S800000x64 ![0, 1] bcast_S800000x1_S800000x64_0_1
          (shapeCast S800000x1 (Cert.ReferenceIdeal.Read.val_main_v26 (F := Ideal) (m ((c : Thread nD τ).loc main_arg1))) shapeCasts_S800000_S800000x1))) = _
  rw [Cert.Bridge.column_edges _ shapeCasts_S800000_S800000x1 bcast_S800000_S800000x1_0]
  rfl

/-- The aggregation call's result is the reference's output of this layer. -/
theorem layer0 (HW : W2 m ρ c (Proc.devRef .tc main_v29) = val_main_v11 (F := Ideal) (m ((c : Thread nD τ).loc main_arg0)) (m ((c : Thread nD τ).loc main_arg3))) :
    W4 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4)) := by
  rw [call1_result, sum0 m ρ c HW, self0 m ρ c HW, bias0 m ρ c, Cert.Bridge.agg_eq]
  rfl

/-! ## Layer 2 -/

/-- The projection call's result array is the product of the arrays it found in its two operands. -/
theorem call2_result : W5 m ρ c (Proc.devRef .tc main_v46)
    = Body.proj (W4 m ρ c (Proc.devRef .tc main_v45)) (W4 m ρ c (Proc.devRef .tc main_arg5)) :=
  (W5_arr m ρ c 2).trans (Call2.final (V4 m ρ) c)

/-- It is the reference's product for this layer. -/
theorem proj1 (H : W4 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4))) :
    W5 m ρ c (Proc.devRef .tc main_v46) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [call2_result]
  have ew : W4 m ρ c (Proc.devRef .tc main_arg5) = (m ((c : Thread nD τ).loc main_arg5)) := by kwalk <;> rfl
  rw [H, ew, Cert.Bridge.proj_eq]
  rfl

/-- The aggregation call's result array is the aggregation step of the arrays it found in its three operands. -/
theorem call3_result : W7 m ρ c (Proc.devRef .tc main_v62)
    = Body.agg (W6 m ρ c (Proc.devRef .tc main_v58)) (W6 m ρ c (Proc.devRef .tc main_v60)) (W6 m ρ c (Proc.devRef .tc main_v61)) :=
  (W7_arr m ρ c 3).trans (Call3.final (V6 m ρ) c)

/-- The bias operand is the layer's bias vector as one row. -/
theorem bias1 : W6 m ρ c (Proc.devRef .tc main_v61) = shapeCast S1x64 (m ((c : Thread nD τ).loc main_arg6)) shapeCasts_S64_S1x64 := by
  kwalk <;> rfl

set_option maxHeartbeats 1000000 in
/-- The self-loop operand is the reference's: the squared inverse root degree of the row times the projected row. -/
theorem self1 (HW : W5 m ρ c (Proc.devRef .tc main_v46) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :
    W6 m ρ c (Proc.devRef .tc main_v60) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  kwalk
  rw [HW]
  show mulf (F := Ideal) (broadcastInDim S50000x64 ![0, 1] bcast_S50000x1_S50000x64_0_1
      (shapeCast S50000x1 (Cert.ReferenceIdeal.Read.val_main_v40 (F := Ideal) (m ((c : Thread nD τ).loc main_arg1))) shapeCasts_S50000_S50000x1))
    (val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5))) = _
  rw [Cert.Bridge.column_nodes _ shapeCasts_S50000_S50000x1 bcast_S50000_S50000x1_0]
  rfl

set_option maxHeartbeats 2000000 in
/-- The neighbour-sum operand is the reference's: projected rows gathered along the edges, scaled by the edge
    normaliser, and added into the destination rows. -/
theorem sum1 (HW : W5 m ρ c (Proc.devRef .tc main_v46) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :
    W6 m ρ c (Proc.devRef .tc main_v58) = val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  kwalk
  rw [HW]
  show Host.scatterAdd (F := Ideal) scatter_S50000x64_S800000x1_S800000x64_1_0_0_1 (Cert.ReferenceIdeal.Read.val_main_v37 (F := Ideal))
      (Cert.ReferenceIdeal.Read.val_main_v38 (F := Ideal) (m ((c : Thread nD τ).loc main_arg1)))
      (mulf (F := Ideal) (Host.gather gather_S50000x64_S800000x1_S800000x64_1_0_n_n_0_1_164 (val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)))
          (Cert.ReferenceIdeal.Read.val_main_v32 (F := Ideal) (m ((c : Thread nD τ).loc main_arg1))))
        (broadcastInDim S800000x64 ![0, 1] bcast_S800000x1_S800000x64_0_1
          (shapeCast S800000x1 (Cert.ReferenceIdeal.Read.val_main_v26 (F := Ideal) (m ((c : Thread nD τ).loc main_arg1))) shapeCasts_S800000_S800000x1))) = _
  rw [Cert.Bridge.column_edges _ shapeCasts_S800000_S800000x1 bcast_S800000_S800000x1_0]
  rfl

/-- The aggregation call's result is the reference's output of this layer. -/
theorem layer1 (HW : W5 m ρ c (Proc.devRef .tc main_v46) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :
    W7 m ρ c (Proc.devRef .tc main_v62) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [call3_result, sum1 m ρ c HW, self1 m ρ c HW, bias1 m ρ c, Cert.Bridge.agg_eq]
  rfl

/-! ## Layer 3 -/

/-- The projection call's result array is the product of the arrays it found in its two operands. -/
theorem call4_result : W8 m ρ c (Proc.devRef .tc main_v63)
    = Body.proj (W7 m ρ c (Proc.devRef .tc main_v62)) (W7 m ρ c (Proc.devRef .tc main_arg7)) :=
  (W8_arr m ρ c 2).trans (Call4.final (V7 m ρ) c)

/-- It is the reference's product for this layer. -/
theorem proj2 (H : W7 m ρ c (Proc.devRef .tc main_v62) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :
    W8 m ρ c (Proc.devRef .tc main_v63) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [call4_result]
  have ew : W7 m ρ c (Proc.devRef .tc main_arg7) = (m ((c : Thread nD τ).loc main_arg7)) := by kwalk <;> rfl
  rw [H, ew, Cert.Bridge.proj_eq]
  rfl

/-- The aggregation call's result array is the aggregation step of the arrays it found in its three operands. -/
theorem call5_result : W10 m ρ c (Proc.devRef .tc main_v79)
    = Body.agg (W9 m ρ c (Proc.devRef .tc main_v75)) (W9 m ρ c (Proc.devRef .tc main_v77)) (W9 m ρ c (Proc.devRef .tc main_v78)) :=
  (W10_arr m ρ c 3).trans (Call5.final (V9 m ρ) c)

/-- The bias operand is the layer's bias vector as one row. -/
theorem bias2 : W9 m ρ c (Proc.devRef .tc main_v78) = shapeCast S1x64 (m ((c : Thread nD τ).loc main_arg8)) shapeCasts_S64_S1x64 := by
  kwalk <;> rfl

set_option maxHeartbeats 1000000 in
/-- The self-loop operand is the reference's: the squared inverse root degree of the row times the projected row. -/
theorem self2 (HW : W8 m ρ c (Proc.devRef .tc main_v63) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    W9 m ρ c (Proc.devRef .tc main_v77) = val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  kwalk
  rw [HW]
  show mulf (F := Ideal) (broadcastInDim S50000x64 ![0, 1] bcast_S50000x1_S50000x64_0_1
      (shapeCast S50000x1 (Cert.ReferenceIdeal.Read.val_main_v40 (F := Ideal) (m ((c : Thread nD τ).loc main_arg1))) shapeCasts_S50000_S50000x1))
    (val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) = _
  rw [Cert.Bridge.column_nodes _ shapeCasts_S50000_S50000x1 bcast_S50000_S50000x1_0]
  rfl

set_option maxHeartbeats 2000000 in
/-- The neighbour-sum operand is the reference's: projected rows gathered along the edges, scaled by the edge
    normaliser, and added into the destination rows. -/
theorem sum2 (HW : W8 m ρ c (Proc.devRef .tc main_v63) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    W9 m ρ c (Proc.devRef .tc main_v75) = val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  kwalk
  rw [HW]
  show Host.scatterAdd (F := Ideal) scatter_S50000x64_S800000x1_S800000x64_1_0_0_1 (Cert.ReferenceIdeal.Read.val_main_v37 (F := Ideal))
      (Cert.ReferenceIdeal.Read.val_main_v38 (F := Ideal) (m ((c : Thread nD τ).loc main_arg1)))
      (mulf (F := Ideal) (Host.gather gather_S50000x64_S800000x1_S800000x64_1_0_n_n_0_1_164 (val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)))
          (Cert.ReferenceIdeal.Read.val_main_v32 (F := Ideal) (m ((c : Thread nD τ).loc main_arg1))))
        (broadcastInDim S800000x64 ![0, 1] bcast_S800000x1_S800000x64_0_1
          (shapeCast S800000x1 (Cert.ReferenceIdeal.Read.val_main_v26 (F := Ideal) (m ((c : Thread nD τ).loc main_arg1))) shapeCasts_S800000_S800000x1))) = _
  rw [Cert.Bridge.column_edges _ shapeCasts_S800000_S800000x1 bcast_S800000_S800000x1_0]
  rfl

/-- The aggregation call's result is the reference's output of this layer. -/
theorem layer2 (HW : W8 m ρ c (Proc.devRef .tc main_v63) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    W10 m ρ c (Proc.devRef .tc main_v79) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [call5_result, sum2 m ρ c HW, self2 m ρ c HW, bias2 m ρ c, Cert.Bridge.agg_eq]
  rfl

/-! ## Layer 4 -/

/-- The projection call's result array is the product of the arrays it found in its two operands. -/
theorem call6_result : W11 m ρ c (Proc.devRef .tc main_v80)
    = Body.proj (W10 m ρ c (Proc.devRef .tc main_v79)) (W10 m ρ c (Proc.devRef .tc main_arg9)) :=
  (W11_arr m ρ c 2).trans (Call6.final (V10 m ρ) c)

/-- It is the reference's product for this layer. -/
theorem proj3 (H : W10 m ρ c (Proc.devRef .tc main_v79) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    W11 m ρ c (Proc.devRef .tc main_v80) = val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [call6_result]
  have ew : W10 m ρ c (Proc.devRef .tc main_arg9) = (m ((c : Thread nD τ).loc main_arg9)) := by kwalk <;> rfl
  rw [H, ew, Cert.Bridge.proj_eq]
  rfl

/-- The aggregation call's result array is the aggregation step of the arrays it found in its three operands. -/
theorem call7_result : W13 m ρ c (Proc.devRef .tc main_v96)
    = Body.agg (W12 m ρ c (Proc.devRef .tc main_v92)) (W12 m ρ c (Proc.devRef .tc main_v94)) (W12 m ρ c (Proc.devRef .tc main_v95)) :=
  (W13_arr m ρ c 3).trans (Call7.final (V12 m ρ) c)

/-- The bias operand is the layer's bias vector as one row. -/
theorem bias3 : W12 m ρ c (Proc.devRef .tc main_v95) = shapeCast S1x64 (m ((c : Thread nD τ).loc main_arg10)) shapeCasts_S64_S1x64 := by
  kwalk <;> rfl

set_option maxHeartbeats 1000000 in
/-- The self-loop operand is the reference's: the squared inverse root degree of the row times the projected row. -/
theorem self3 (HW : W11 m ρ c (Proc.devRef .tc main_v80) = val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W12 m ρ c (Proc.devRef .tc main_v94) = val_main_v157 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  kwalk
  rw [HW]
  show mulf (F := Ideal) (broadcastInDim S50000x64 ![0, 1] bcast_S50000x1_S50000x64_0_1
      (shapeCast S50000x1 (Cert.ReferenceIdeal.Read.val_main_v40 (F := Ideal) (m ((c : Thread nD τ).loc main_arg1))) shapeCasts_S50000_S50000x1))
    (val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) = _
  rw [Cert.Bridge.column_nodes _ shapeCasts_S50000_S50000x1 bcast_S50000_S50000x1_0]
  rfl

set_option maxHeartbeats 2000000 in
/-- The neighbour-sum operand is the reference's: projected rows gathered along the edges, scaled by the edge
    normaliser, and added into the destination rows. -/
theorem sum3 (HW : W11 m ρ c (Proc.devRef .tc main_v80) = val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W12 m ρ c (Proc.devRef .tc main_v92) = val_main_v153 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  kwalk
  rw [HW]
  show Host.scatterAdd (F := Ideal) scatter_S50000x64_S800000x1_S800000x64_1_0_0_1 (Cert.ReferenceIdeal.Read.val_main_v37 (F := Ideal))
      (Cert.ReferenceIdeal.Read.val_main_v38 (F := Ideal) (m ((c : Thread nD τ).loc main_arg1)))
      (mulf (F := Ideal) (Host.gather gather_S50000x64_S800000x1_S800000x64_1_0_n_n_0_1_164 (val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
          (Cert.ReferenceIdeal.Read.val_main_v32 (F := Ideal) (m ((c : Thread nD τ).loc main_arg1))))
        (broadcastInDim S800000x64 ![0, 1] bcast_S800000x1_S800000x64_0_1
          (shapeCast S800000x1 (Cert.ReferenceIdeal.Read.val_main_v26 (F := Ideal) (m ((c : Thread nD τ).loc main_arg1))) shapeCasts_S800000_S800000x1))) = _
  rw [Cert.Bridge.column_edges _ shapeCasts_S800000_S800000x1 bcast_S800000_S800000x1_0]
  rfl

/-- The aggregation call's result is the reference's output of this layer. -/
theorem layer3 (HW : W11 m ρ c (Proc.devRef .tc main_v80) = val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W13 m ρ c (Proc.devRef .tc main_v96) = val_main_v162 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [call7_result, sum3 m ρ c HW, self3 m ρ c HW, bias3 m ρ c, Cert.Bridge.agg_eq]
  rfl

/-! ## Layer 5 -/

/-- The projection call's result array is the product of the arrays it found in its two operands. -/
theorem call8_result : W14 m ρ c (Proc.devRef .tc main_v97)
    = Body.proj (W13 m ρ c (Proc.devRef .tc main_v96)) (W13 m ρ c (Proc.devRef .tc main_arg11)) :=
  (W14_arr m ρ c 2).trans (Call8.final (V13 m ρ) c)

/-- It is the reference's product for this layer. -/
theorem proj4 (H : W13 m ρ c (Proc.devRef .tc main_v96) = val_main_v162 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W14 m ρ c (Proc.devRef .tc main_v97) = val_main_v163 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [call8_result]
  have ew : W13 m ρ c (Proc.devRef .tc main_arg11) = (m ((c : Thread nD τ).loc main_arg11)) := by kwalk <;> rfl
  rw [H, ew, Cert.Bridge.proj_eq]
  rfl

/-- The aggregation call's result array is the aggregation step of the arrays it found in its three operands. -/
theorem call9_result : W16 m ρ c (Proc.devRef .tc main_v113)
    = Body.agg (W15 m ρ c (Proc.devRef .tc main_v109)) (W15 m ρ c (Proc.devRef .tc main_v111)) (W15 m ρ c (Proc.devRef .tc main_v112)) :=
  (W16_arr m ρ c 3).trans (Call9.final (V15 m ρ) c)

/-- The bias operand is the layer's bias vector as one row. -/
theorem bias4 : W15 m ρ c (Proc.devRef .tc main_v112) = shapeCast S1x64 (m ((c : Thread nD τ).loc main_arg12)) shapeCasts_S64_S1x64 := by
  kwalk <;> rfl

set_option maxHeartbeats 1000000 in
/-- The self-loop operand is the reference's: the squared inverse root degree of the row times the projected row. -/
theorem self4 (HW : W14 m ρ c (Proc.devRef .tc main_v97) = val_main_v163 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W15 m ρ c (Proc.devRef .tc main_v111) = val_main_v195 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  kwalk
  rw [HW]
  show mulf (F := Ideal) (broadcastInDim S50000x64 ![0, 1] bcast_S50000x1_S50000x64_0_1
      (shapeCast S50000x1 (Cert.ReferenceIdeal.Read.val_main_v40 (F := Ideal) (m ((c : Thread nD τ).loc main_arg1))) shapeCasts_S50000_S50000x1))
    (val_main_v163 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) = _
  rw [Cert.Bridge.column_nodes _ shapeCasts_S50000_S50000x1 bcast_S50000_S50000x1_0]
  rfl

set_option maxHeartbeats 2000000 in
/-- The neighbour-sum operand is the reference's: projected rows gathered along the edges, scaled by the edge
    normaliser, and added into the destination rows. -/
theorem sum4 (HW : W14 m ρ c (Proc.devRef .tc main_v97) = val_main_v163 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W15 m ρ c (Proc.devRef .tc main_v109) = val_main_v191 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  kwalk
  rw [HW]
  show Host.scatterAdd (F := Ideal) scatter_S50000x64_S800000x1_S800000x64_1_0_0_1 (Cert.ReferenceIdeal.Read.val_main_v37 (F := Ideal))
      (Cert.ReferenceIdeal.Read.val_main_v38 (F := Ideal) (m ((c : Thread nD τ).loc main_arg1)))
      (mulf (F := Ideal) (Host.gather gather_S50000x64_S800000x1_S800000x64_1_0_n_n_0_1_164 (val_main_v163 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
          (Cert.ReferenceIdeal.Read.val_main_v32 (F := Ideal) (m ((c : Thread nD τ).loc main_arg1))))
        (broadcastInDim S800000x64 ![0, 1] bcast_S800000x1_S800000x64_0_1
          (shapeCast S800000x1 (Cert.ReferenceIdeal.Read.val_main_v26 (F := Ideal) (m ((c : Thread nD τ).loc main_arg1))) shapeCasts_S800000_S800000x1))) = _
  rw [Cert.Bridge.column_edges _ shapeCasts_S800000_S800000x1 bcast_S800000_S800000x1_0]
  rfl

/-- The aggregation call's result is the reference's output of this layer. -/
theorem layer4 (HW : W14 m ρ c (Proc.devRef .tc main_v97) = val_main_v163 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W16 m ρ c (Proc.devRef .tc main_v113) = val_main_v200 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [call9_result, sum4 m ρ c HW, self4 m ρ c HW, bias4 m ρ c, Cert.Bridge.agg_eq]
  rfl

/-! ## Pooling and the dense head -/

/-- The head call's result array is the head's formula of the arrays it found in its five operands. -/
theorem call10_result : W18 m ρ c (Proc.devRef .tc main_v119)
    = Body.head (W17 m ρ c (Proc.devRef .tc main_v116)) (W17 m ρ c (Proc.devRef .tc main_arg13)) (W17 m ρ c (Proc.devRef .tc main_v117))
        (W17 m ρ c (Proc.devRef .tc main_arg15)) (W17 m ρ c (Proc.devRef .tc main_v118)) :=
  (W18_arr m ρ c 5).trans (Call10.final (V17 m ρ) c)

set_option maxHeartbeats 1000000 in
/-- The head's first operand is the reference's pooled rows: the last layer's output added into the graphs' rows. -/
theorem pooled (L4 : W16 m ρ c (Proc.devRef .tc main_v113) = val_main_v200 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    W17 m ρ c (Proc.devRef .tc main_v116) = val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  kwalk
  rw [L4]
  rfl

set_option maxHeartbeats 1000000 in
theorem head_w1 : W17 m ρ c (Proc.devRef .tc main_arg13) = (m ((c : Thread nD τ).loc main_arg13)) := by kwalk <;> rfl

set_option maxHeartbeats 1000000 in
theorem head_b1 : W17 m ρ c (Proc.devRef .tc main_v117) = shapeCast S1x128 (m ((c : Thread nD τ).loc main_arg14)) shapeCasts_S128_S1x128 := by kwalk <;> rfl

set_option maxHeartbeats 1000000 in
theorem head_w2 : W17 m ρ c (Proc.devRef .tc main_arg15) = (m ((c : Thread nD τ).loc main_arg15)) := by kwalk <;> rfl

set_option maxHeartbeats 1000000 in
theorem head_b2 : W17 m ρ c (Proc.devRef .tc main_v118) = shapeCast S1x1 (m ((c : Thread nD τ).loc main_arg16)) shapeCasts_S1_S1x1 := by kwalk <;> rfl

/-- The kernel's result is the reference's last stage of the same arguments. -/
theorem result : W18 m ρ c (Proc.devRef .tc main_v119)
    = val_main_v212 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have L4 := layer4 m ρ c (proj4 m ρ c (layer3 m ρ c (proj3 m ρ c (layer2 m ρ c (proj2 m ρ c (layer1 m ρ c (proj1 m ρ c
    (layer0 m ρ c (proj0 m ρ c)))))))))
  rw [call10_result, head_w1 m ρ c, head_b1 m ρ c, head_w2 m ρ c, head_b2 m ρ c]
  exact Cert.Bridge.head_eq _ _ _ _ _ _ _ _ _ _ _ _ _ _ _ _ _ _ (pooled m ρ c L4) _ _

end Cert.KernelIdeal.Chain

end
-- ==== Proof.lean ====
/-
  The certificate: the three programs run and leave their arguments unchanged, and over the extended reals the
  idealized kernel and the idealized reference end with equal results from equal arguments.

  The kernel's result is read off its run boundary by boundary: five graph-convolution layers (a row-blocked
  product, the edge gather / scale / scatter-add and self-loop term on the host, and an aggregation step with bias
  and maximum with zero), a pooling over graphs, and a two-layer dense head. Each piece is the reference's own
  stage of the same arguments; no step needs the inputs to be finite, only that sums and products are the same
  sums and products on both sides.
-/
import proofs.«104814_j84112639525116_1_alg».proof.Defs
import proofs.«104814_j84112639525116_1_alg».proof.Proof.Gen.Kernel
import proofs.«104814_j84112639525116_1_alg».proof.Proof.Gen.Kernel.Skeleton
import proofs.«104814_j84112639525116_1_alg».proof.Proof.Gen.Kernel.Launch
import proofs.«104814_j84112639525116_1_alg».proof.Proof.Gen.Kernel.Points
import proofs.«104814_j84112639525116_1_alg».proof.Proof.Gen.Kernel.Frame
import proofs.«104814_j84112639525116_1_alg».proof.Proof.Gen.KernelIdeal
import proofs.«104814_j84112639525116_1_alg».proof.Proof.Gen.KernelIdeal.Skeleton
import proofs.«104814_j84112639525116_1_alg».proof.Proof.Gen.KernelIdeal.Launch
import proofs.«104814_j84112639525116_1_alg».proof.Proof.Gen.KernelIdeal.Points
import proofs.«104814_j84112639525116_1_alg».proof.Proof.Gen.KernelIdeal.Frame
import proofs.«104814_j84112639525116_1_alg».proof.Proof.Gen.ReferenceIdeal
import proofs.«104814_j84112639525116_1_alg».proof.Proof.Gen.Pre_finite_inputs
import proofs.«104814_j84112639525116_1_alg».proof.Proof.Gen.ReferenceIdeal.Run
import proofs.«104814_j84112639525116_1_alg».proof.Proof.Gen.ReferenceIdeal.Read
import proofs.«104814_j84112639525116_1_alg».proof.Proof.RunResult
import proofs.«104814_j84112639525116_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no pipelined call: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end at the reference's last stage of the (equal) arguments. -/
theorem algebraic : Cert.algebraic_KernelIdeal_ReferenceIdeal := by
  intro m ρ m' ρ' _ hagree
  refine ⟨fun c => Cert.ReferenceIdeal.Read.val_main_v212 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Chain.result m ρ c), (h c).2⟩)
      (Cert.KernelIdeal.Gen.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v212_eq, h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
